-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x5 : Shape := ⟨2, ![100000, 5]⟩
abbrev S2x2500000 : Shape := ⟨2, ![2, 2500000]⟩
abbrev S5x32 : Shape := ⟨2, ![5, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x5 : S_.BroadcastsInDim S100000x5 (![] : Fin 0 → Fin S100000x5.rank)
  reducesTo_S100000x5_S_d0_1 : S100000x5.ReducesTo [0, 1] S_
  h_S_ : 0 < S_.numel
  bcast_S_S5x32 : S_.BroadcastsInDim S5x32 (![] : Fin 0 → Fin S5x32.rank)
  reducesTo_S5x32_S_d0_1 : S5x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S32x1 1) : IVec S_ 1 :=
  let main_c_5 : IVec S_ 1 := constantI S_ 1 1#1
  let main_v17 : IVec S_ 1 := (fun x v => Host.reduce IntOp.andi x v reducesTo_S32x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x5 .f32) (main_arg1 : IVec S2x2500000 32) (main_arg2 : FVec F S5x32 .f32) (main_arg3 : FVec F S32 .f32) (main_arg4 : FVec F S32x1 .f32) (main_arg5 : FVec F S1 .f32) : IVec S_ 1 :=
  let main_v0 : FVec F S100000x5 .f32 := Host.absf main_arg0
  let main_cst : FVec F S_ .f32 := constant S_ .f32 0x7F800000#32
  let main_v1 : FVec F S100000x5 .f32 := broadcastInDim S100000x5 ![] bcast_S_S100000x5 main_cst
  let main_v2 : IVec S100000x5 1 := cmpf .olt main_v0 main_v1
  let main_c : IVec S_ 1 := constantI S_ 1 1#1
  let main_v3 : IVec S_ 1 := (fun x v => Host.reduce IntOp.andi x v reducesTo_S100000x5_S_d0_1 h_S_) main_v2 main_c
  let main_v4 : FVec F S5x32 .f32 := Host.absf main_arg2
  let main_cst_0 : FVec F S_ .f32 := constant S_ .f32 0x7F800000#32
  let main_v5 : FVec F S5x32 .f32 := broadcastInDim S5x32 ![] bcast_S_S5x32 main_cst_0
  let main_v6 : IVec S5x32 1 := cmpf .olt main_v4 main_v5
  let main_c_1 : IVec S_ 1 := constantI S_ 1 1#1
  let main_v7 : IVec S_ 1 := (fun x v => Host.reduce IntOp.andi x v reducesTo_S5x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x1 .f32 := Host.absf main_arg4
  let main_cst_4 : FVec F S_ .f32 := constant S_ .f32 0x7F800000#32
  let main_v15 : FVec F S32x1 .f32 := broadcastInDim S32x1 ![] bcast_S_S32x1 main_cst_4
  let main_v16 : IVec S32x1 1 := cmpf .olt main_v14 main_v15
  fn_part1 (F := F) main_arg5 main_v13 main_v16
-- ==== Kernel.lean ====
abbrev S100000x5 : Shape := ⟨2, ![100000, 5]⟩
abbrev S2x2500000 : Shape := ⟨2, ![2, 2500000]⟩
abbrev S5x32 : Shape := ⟨2, ![5, 32]⟩
abbrev S32 : Shape := ⟨1, ![32]⟩
abbrev S32x1 : Shape := ⟨2, ![32, 1]⟩
abbrev S1 : Shape := ⟨1, ![1]⟩
abbrev S1x2500000 : Shape := ⟨2, ![1, 2500000]⟩
abbrev S2500000 : Shape := ⟨1, ![2500000]⟩
abbrev S100000 : Shape := ⟨1, ![100000]⟩
abbrev S2600000 : Shape := ⟨1, ![2600000]⟩
abbrev S_ : Shape := ⟨0, ![]⟩
abbrev S2600000x1 : Shape := ⟨2, ![2600000, 1]⟩
abbrev S2600000x5 : Shape := ⟨2, ![2600000, 5]⟩
abbrev S1x32 : Shape := ⟨2, ![1, 32]⟩
abbrev S100000x1 : Shape := ⟨2, ![100000, 1]⟩
abbrev S10000x5 : Shape := ⟨2, ![10000, 5]⟩
abbrev S10000x1 : Shape := ⟨2, ![10000, 1]⟩
abbrev S10000x32 : Shape := ⟨2, ![10000, 32]⟩
abbrev S100x1000 : Shape := ⟨2, ![100, 1000]⟩
abbrev S1x1 : Shape := ⟨2, ![1, 1]⟩

abbrev nBuf : Space → Nat
  | .hbm => 82
  | .vmem => 10
  | .smem => 0
  | _ => 0

abbrev bufTy : (tb : Table) → Fin (tcTables nBuf tb) → BufTy
  | .hbm, ⟨0, _⟩ => ⟨S100000x5, .f32⟩
  | .hbm, ⟨1, _⟩ => ⟨S2x2500000, .i32⟩
  | .hbm, ⟨2, _⟩ => ⟨S5x32, .f32⟩
  | .hbm, ⟨3, _⟩ => ⟨S32, .f32⟩
  | .hbm, ⟨4, _⟩ => ⟨S32x1, .f32⟩
  | .hbm, ⟨5, _⟩ => ⟨S1, .f32⟩
  | .hbm, ⟨6, _⟩ => ⟨S1x2500000, .i32⟩
  | .hbm, ⟨7, _⟩ => ⟨S2500000, .i32⟩
  | .hbm, ⟨8, _⟩ => ⟨S1x2500000, .i32⟩
  | .hbm, ⟨9, _⟩ => ⟨S2500000, .i32⟩
  | .hbm, ⟨10, _⟩ => ⟨S100000, .i32⟩
  | .hbm, ⟨11, _⟩ => ⟨S2600000, .i32⟩
  | .hbm, ⟨12, _⟩ => ⟨S2600000, .i32⟩
  | .hbm, ⟨13, _⟩ => ⟨S_, .f32⟩
  | .hbm, ⟨14, _⟩ => ⟨S2600000, .f32⟩
  | .hbm, ⟨15, _⟩ => ⟨S_, .f32⟩
  | .hbm, ⟨16, _⟩ => ⟨S100000, .f32⟩
  | .hbm, ⟨17, _⟩ => ⟨S2600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S2600000, .i32⟩
  | .hbm, ⟨28, _⟩ => ⟨S2600000, .i1⟩
  | .hbm, ⟨29, _⟩ => ⟨S_, .i32⟩
  | .hbm, ⟨30, _⟩ => ⟨S2600000, .i32⟩
  | .hbm, ⟨31, _⟩ => ⟨S2600000, .i32⟩
  | .hbm, ⟨32, _⟩ => ⟨S2600000, .i32⟩
  | .hbm, ⟨33, _⟩ => ⟨S2600000x1, .i32⟩
  | .hbm, ⟨34, _⟩ => ⟨S2600000, .f32⟩
  | .hbm, ⟨35, _⟩ => ⟨S_, .i32⟩
  | .hbm, ⟨36, _⟩ => ⟨S2600000, .i32⟩
  | .hbm, ⟨37, _⟩ => ⟨S2600000, .i1⟩
  | .hbm, ⟨38, _⟩ => ⟨S_, .i32⟩
  | .hbm, ⟨39, _⟩ => ⟨S2600000, .i32⟩
  | .hbm, ⟨40, _⟩ => ⟨S2600000, .i32⟩
  | .hbm, ⟨41, _⟩ => ⟨S2600000, .i32⟩
  | .hbm, ⟨42, _⟩ => ⟨S2600000x1, .i32⟩
  | .hbm, ⟨43, _⟩ => ⟨S2600000, .f32⟩
  | .hbm, ⟨44, _⟩ => ⟨S2600000, .f32⟩
  | .hbm, ⟨45, _⟩ => ⟨S_, .i32⟩
  | .hbm, ⟨46, _⟩ => ⟨S2600000, .i32⟩
  | .hbm, ⟨47, _⟩ => ⟨S2600000, .i1⟩
  | .hbm, ⟨48, _⟩ => ⟨S_, .i32⟩
  | .hbm, ⟨49, _⟩ => ⟨S2600000, .i32⟩
  | .hbm, ⟨50, _⟩ => ⟨S2600000, .i32⟩
  | .hbm, ⟨51, _⟩ => ⟨S2600000, .i32⟩
  | .hbm, ⟨52, _⟩ => ⟨S2600000x1, .i32⟩
  | .hbm, ⟨53, _⟩ => ⟨S2600000x5, .f32⟩
  | .hbm, ⟨54, _⟩ => ⟨S2600000x1, .f32⟩
  | .hbm, ⟨55, _⟩ => ⟨S2600000x5, .f32⟩
  | .hbm, ⟨56, _⟩ => ⟨S2600000x5, .f32⟩
  | .hbm, ⟨57, _⟩ => ⟨S_, .f32⟩
  | .hbm, ⟨58, _⟩ => ⟨S100000x5, .f32⟩
  | .hbm, ⟨59, _⟩ => ⟨S2600000x1, .i32⟩
  | .hbm, ⟨60, _⟩ => ⟨S100000x5, .f32⟩
  | .hbm, ⟨61, _⟩ => ⟨S1x32, .f32⟩
  | .hbm, ⟨62, _⟩ => ⟨S100000x1, .f32⟩
  | .hbm, ⟨63, _⟩ => ⟨S_, .i32⟩
  | .hbm, ⟨64, _⟩ => ⟨S2600000, .i32⟩
  | .hbm, ⟨65, _⟩ => ⟨S2600000, .i1⟩
  | .hbm, ⟨66, _⟩ => ⟨S_, .i32⟩
  | .hbm, ⟨67, _⟩ => ⟨S2600000, .i32⟩
  | .hbm, ⟨68, _⟩ => ⟨S2600000, .i32⟩
  | .hbm, ⟨69, _⟩ => ⟨S2600000, .i32⟩
  | .hbm, ⟨70, _⟩ => ⟨S2600000x1, .i32⟩
  | .hbm, ⟨71, _⟩ => ⟨S2600000x1, .f32⟩
  | .hbm, ⟨72, _⟩ => ⟨S2600000x1, .f32⟩
  | .hbm, ⟨73, _⟩ => ⟨S2600000x1, .f32⟩
  | .hbm, ⟨74, _⟩ => ⟨S_, .f32⟩
  | .hbm, ⟨75, _⟩ => ⟨S100000x1, .f32⟩
  | .hbm, ⟨76, _⟩ => ⟨S2600000x1, .i32⟩
  | .hbm, ⟨77, _⟩ => ⟨S100000x1, .f32⟩
  | .hbm, ⟨78, _⟩ => ⟨S100x1000, .f32⟩
  | .hbm, ⟨79, _⟩ => ⟨S1x1, .f32⟩
  | .hbm, ⟨80, _⟩ => ⟨S100x1000, .f32⟩
  | .hbm, ⟨81, _⟩ => ⟨S100000x1, .f32⟩
  | .local _ .vmem, ⟨0, _⟩ => ⟨S10000x5, .f32⟩
  | .local _ .vmem, ⟨1, _⟩ => ⟨S10000x5, .f32⟩
  | .local _ .vmem, ⟨2, _⟩ => ⟨S5x32, .f32⟩
  | .local _ .vmem, ⟨3, _⟩ => ⟨S1x32, .f32⟩
  | .local _ .vmem, ⟨4, _⟩ => ⟨S32x1, .f32⟩
  | .local _ .vmem, ⟨5, _⟩ => ⟨S10000x1, .f32⟩
  | .local _ .vmem, ⟨6, _⟩ => ⟨S10000x1, .f32⟩
  | .local _ .vmem, ⟨7, _⟩ => ⟨S100x1000, .f32⟩
  | .local _ .vmem, ⟨8, _⟩ => ⟨S1x1, .f32⟩
  | .local _ .vmem, ⟨9, _⟩ => ⟨S100x1000, .f32⟩
  | _, _ => ⟨S100000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c_9 : Ref sig .tc := ⟨.hbm, 63, rfl⟩
abbrev main_v46 : Ref sig .tc := ⟨.hbm, 64, rfl⟩
abbrev main_v47 : Ref sig .tc := ⟨.hbm, 65, rfl⟩
abbrev main_c_10 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_11 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem1_0 : DmaSem sig := 8
abbrev cc1_sem2_0 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S100x1000 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S100x1000 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  slices_S2x2500000_S1x2500000_0_0 : S2x2500000.Slices ![0, 0] S1x2500000
  shapeCasts_S1x2500000_S2500000 : S1x2500000.ShapeCasts S2500000
  slices_S2x2500000_S1x2500000_1_0 : S2x2500000.Slices ![1, 0] S1x2500000
  concatenates_S2500000_S100000_S2600000_d0 : Shape.Concatenates [S2500000, S100000] S2600000 0
  bcast_S_S2600000 : S_.BroadcastsInDim S2600000 (![] : Fin 0 → Fin S2600000.rank)
  bcast_S_S100000 : S_.BroadcastsInDim S100000 (![] : Fin 0 → Fin S100000.rank)
  bcast_S2600000_S2600000x1_0 : S2600000.BroadcastsInDim S2600000x1 (![0] : Fin 1 → Fin S2600000x1.rank)
  bcast_S2600000x1_S2600000x5_0_1 : S2600000x1.BroadcastsInDim S2600000x5 (![0, 1] : Fin 2 → Fin S2600000x5.rank)
  bcast_S_S100000x5 : S_.BroadcastsInDim S100000x5 (![] : Fin 0 → Fin S100000x5.rank)
  shapeCasts_S32_S1x32 : S32.ShapeCasts S1x32
  inb_S10000x5_S10000x5_0_0 : ∀ a, (![0, 0] : Fin 2 → Nat) a + S10000x5.size a ≤ S10000x5.size a
  h_S10000x5 : 0 < S10000x5.numel
  shapeCasts_S10000x5_S10000x5 : S10000x5.ShapeCasts S10000x5
  bitsLt_bf16_f32 : FTy.bits .bf16 < FTy.bits .f32
  inb_S5x32_S5x32_0_0 : ∀ a, (![0, 0] : Fin 2 → Nat) a + S5x32.size a ≤ S5x32.size a
  h_S5x32 : 0 < S5x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x1_S32x1_0_0 : ∀ a, (![0, 0] : Fin 2 → Nat) a + S32x1.size a ≤ S32x1.size a
  h_S32x1 : 0 < S32x1.numel
  inb_S10000x1_S10000x1_0_0 : ∀ a, (![0, 0] : Fin 2 → Nat) a + S10000x1.size a ≤ S10000x1.size a
  h_S10000x1 : 0 < S10000x1.numel
  bcast_S_S100000x1 : S_.BroadcastsInDim S100000x1 (![] : Fin 0 → Fin S100000x1.rank)
  shapeCasts_S100000x1_S100x1000 : S100000x1.ShapeCasts S100x1000
  shapeCasts_S1_S1x1 : S1.ShapeCasts S1x1
  inb_S100x1000_S100x1000_0_0 : ∀ a, (![0, 0] : Fin 2 → Nat) a + S100x1000.size a ≤ S100x1000.size a
  h_S100x1000 : 0 < S100x1000.numel
  shapeCasts_S100x1000_S100x1000 : S100x1000.ShapeCasts S100x1000
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S100x1000 : S1x1.Broadcasts S100x1000
  shapeCasts_S100x1000_S100000x1 : S100x1000.ShapeCasts S100000x1
  scatter_S100000_S2600000x1_S2600000_n_0_0_1_wf : ScatterDims.WF S100000 S2600000x1 S2600000 [] [0] [0] 1
  gather_S100000_S2600000x1_S2600000_n_0_n_n_0_1_1_wf : GatherDims.WF S100000 S2600000x1 S2600000 [] [0] [] [0] [] 1 ![1]
  gather_S100000x5_S2600000x1_S2600000x5_1_0_n_n_0_1_15_wf : GatherDims.WF S100000x5 S2600000x1 S2600000x5 [1] [0] [] [0] [] 1 ![1, 5]
  scatter_S100000x5_S2600000x1_S2600000x5_1_0_0_1_wf : ScatterDims.WF S100000x5 S2600000x1 S2600000x5 [1] [0] [0] 1
  dot_S10000x5_S5x32_S10000x32_1_0_0_1_n_n_wf : DotDims.WF S10000x5 S5x32 S10000x32 [1] [0] [0] [1] [] []
  dot_S10000x32_S32x1_S10000x1_1_0_0_1_n_n_wf : DotDims.WF S10000x32 S32x1 S10000x1 [1] [0] [0] [1] [] []
  gather_S100000x1_S2600000x1_S2600000x1_1_0_n_n_0_1_11_wf : GatherDims.WF S100000x1 S2600000x1 S2600000x1 [1] [0] [] [0] [] 1 ![1, 1]
  scatter_S100000x1_S2600000x1_S2600000x1_1_0_0_1_wf : ScatterDims.WF S100000x1 S2600000x1 S2600000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x5.size a ≤ S100000x5.size a
  hwx0_0 : ∀ i : grid0.Coords, EltTy.bits .f32 = 32 ∨ (Rect.block (s := S100000x5) S10000x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x32.size a ≤ S5x32.size a
  hwx0_1 : ∀ i : grid0.Coords, EltTy.bits .f32 = 32 ∨ (Rect.block (s := S5x32) S5x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x1.size a ≤ S32x1.size a
  hwx0_3 : ∀ i : grid0.Coords, EltTy.bits .f32 = 32 ∨ (Rect.block (s := S32x1) S32x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x1.size a ≤ S100000x1.size a
  hwx0_4 : ∀ i : grid0.Coords, EltTy.bits .f32 = 32 ∨ (Rect.block (s := S100000x1) S10000x1.size (cc0_transform_4 i) (hinb0_4 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S100x1000.size a ≤ S100x1000.size a
  hwx1_0 : ∀ i : grid1.Coords, EltTy.bits .f32 = 32 ∨ (Rect.block (s := S100x1000) S100x1000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S100x1000.size a ≤ S100x1000.size a
  hwx1_2 : ∀ i : grid1.Coords, EltTy.bits .f32 = 32 ∨ (Rect.block (s := S100x1000) S100x1000.size (cc1_transform_2 i) (hinb1_2 i)).WholeWords (EltTy.packing .f32)

variable [Facts₀]

def scatter_S100000_S2600000x1_S2600000_n_0_0_1 : ScatterDims S100000 S2600000x1 S2600000 where
  updateWindowDims := []
  insertedWindowDims := [0]
  scatterDimsToOperandDims := [0]
  indexVectorDim := 1
  wf := scatter_S100000_S2600000x1_S2600000_n_0_0_1_wf
def gather_S100000_S2600000x1_S2600000_n_0_n_n_0_1_1 : GatherDims S100000 S2600000x1 S2600000 where
  offsetDims := []
  collapsedSliceDims := [0]
  operandBatchingDims := []
  startIndicesBatchingDims := []
  startIndexMap := [0]
  indexVectorDim := 1
  sliceSizes := ![1]
  wf := gather_S100000_S2600000x1_S2600000_n_0_n_n_0_1_1_wf
def gather_S100000x5_S2600000x1_S2600000x5_1_0_n_n_0_1_15 : GatherDims S100000x5 S2600000x1 S2600000x5 where
  offsetDims := [1]
  collapsedSliceDims := [0]
  operandBatchingDims := []
  startIndicesBatchingDims := []
  startIndexMap := [0]
  indexVectorDim := 1
  sliceSizes := ![1, 5]
  wf := gather_S100000x5_S2600000x1_S2600000x5_1_0_n_n_0_1_15_wf
def scatter_S100000x5_S2600000x1_S2600000x5_1_0_0_1 : ScatterDims S100000x5 S2600000x1 S2600000x5 where
  updateWindowDims := [1]
  insertedWindowDims := [0]
  scatterDimsToOperandDims := [0]
  indexVectorDim := 1
  wf := scatter_S100000x5_S2600000x1_S2600000x5_1_0_0_1_wf
def dot_S10000x5_S5x32_S10000x32_1_0_0_1_n_n : DotDims S10000x5 S5x32 S10000x32 where
  lhsContracting := [1]
  rhsContracting := [0]
  lhsNonContracting := [0]
  rhsNonContracting := [1]
  lhsBatch := []
  rhsBatch := []
  wf := dot_S10000x5_S5x32_S10000x32_1_0_0_1_n_n_wf
def dot_S10000x32_S32x1_S10000x1_1_0_0_1_n_n : DotDims S10000x32 S32x1 S10000x1 where
  lhsContracting := [1]
  rhsContracting := [0]
  lhsNonContracting := [0]
  rhsNonContracting := [1]
  lhsBatch := []
  rhsBatch := []
  wf := dot_S10000x32_S32x1_S10000x1_1_0_0_1_n_n_wf
def gather_S100000x1_S2600000x1_S2600000x1_1_0_n_n_0_1_11 : GatherDims S100000x1 S2600000x1 S2600000x1 where
  offsetDims := [1]
  collapsedSliceDims := [0]
  operandBatchingDims := []
  startIndicesBatchingDims := []
  startIndexMap := [0]
  indexVectorDim := 1
  sliceSizes := ![1, 1]
  wf := gather_S100000x1_S2600000x1_S2600000x1_1_0_n_n_0_1_11_wf
def scatter_S100000x1_S2600000x1_S2600000x1_1_0_0_1 : ScatterDims S100000x1 S2600000x1 S2600000x1 where
  updateWindowDims := [1]
  insertedWindowDims := [0]
  scatterDimsToOperandDims := [0]
  indexVectorDim := 1
  wf := scatter_S100000x1_S2600000x1_S2600000x1_1_0_0_1_wf

abbrev win0_0 : Pipeline.Window sig grid0 :=
  Pipeline.Window.ofSpec (Memref.whole main_v43) S10000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S5x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v44) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S32x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v45) S10000x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v58) S100x1000.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v59) S1x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v60) S100x1000.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x5 : Shape := ⟨2, ![100000, 5]⟩
abbrev S2x2500000 : Shape := ⟨2, ![2, 2500000]⟩
abbrev S5x32 : Shape := ⟨2, ![5, 32]⟩
abbrev S32 : Shape := ⟨1, ![32]⟩
abbrev S32x1 : Shape := ⟨2, ![32, 1]⟩
abbrev S1 : Shape := ⟨1, ![1]⟩
abbrev S1x2500000 : Shape := ⟨2, ![1, 2500000]⟩
abbrev S2500000 : Shape := ⟨1, ![2500000]⟩
abbrev S100000 : Shape := ⟨1, ![100000]⟩
abbrev S2600000 : Shape := ⟨1, ![2600000]⟩
abbrev S_ : Shape := ⟨0, ![]⟩
abbrev S2600000x1 : Shape := ⟨2, ![2600000, 1]⟩
abbrev S100000x32 : Shape := ⟨2, ![100000, 32]⟩
abbrev S2600000x32 : Shape := ⟨2, ![2600000, 32]⟩
abbrev S1x32 : Shape := ⟨2, ![1, 32]⟩
abbrev S100000x1 : Shape := ⟨2, ![100000, 1]⟩
abbrev S1x1 : Shape := ⟨2, ![1, 1]⟩

abbrev nBuf : Space → Nat
  | .hbm => 130
  | .vmem => 0
  | .smem => 0
  | _ => 0

abbrev hbmTy0_0 (i : Nat) : BufTy := match i % 128 with
  | 0 => ⟨S100000x5, .f32⟩
  | 1 => ⟨S2x2500000, .i32⟩
  | 2 => ⟨S5x32, .f32⟩
  | 3 => ⟨S32, .f32⟩
  | 4 => ⟨S32x1, .f32⟩
  | 5 => ⟨S1, .f32⟩
  | 6 => ⟨S1x2500000, .i32⟩
  | 7 => ⟨S2500000, .i32⟩
  | 8 => ⟨S1x2500000, .i32⟩
  | 9 => ⟨S2500000, .i32⟩
  | 10 => ⟨S100000, .i32⟩
  | 11 => ⟨S2600000, .i32⟩
  | 12 => ⟨S2600000, .i32⟩
  | 13 => ⟨S_, .f32⟩
  | 14 => ⟨S2600000, .f32⟩
  | 15 => ⟨S_, .f32⟩
  | 16 => ⟨S100000, .f32⟩
  | 17 => ⟨S2600000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S100000, .f32⟩
  | 25 => ⟨S100000, .f32⟩
  | 26 => ⟨S_, .i32⟩
  | 27 => ⟨S2600000, .i32⟩
  | 28 => ⟨S2600000, .i1⟩
  | 29 => ⟨S_, .i32⟩
  | 30 => ⟨S2600000, .i32⟩
  | 31 => ⟨S2600000, .i32⟩
  | 32 => ⟨S2600000, .i32⟩
  | 33 => ⟨S2600000x1, .i32⟩
  | 34 => ⟨S2600000, .f32⟩
  | 35 => ⟨S_, .i32⟩
  | 36 => ⟨S2600000, .i32⟩
  | 37 => ⟨S2600000, .i1⟩
  | 38 => ⟨S_, .i32⟩
  | 39 => ⟨S2600000, .i32⟩
  | 40 => ⟨S2600000, .i32⟩
  | 41 => ⟨S2600000, .i32⟩
  | 42 => ⟨S2600000x1, .i32⟩
  | 43 => ⟨S2600000, .f32⟩
  | 44 => ⟨S2600000, .f32⟩
  | 45 => ⟨S100000x32, .f32⟩
  | 46 => ⟨S_, .i32⟩
  | 47 => ⟨S2600000, .i32⟩
  | 48 => ⟨S2600000, .i1⟩
  | 49 => ⟨S_, .i32⟩
  | 50 => ⟨S2600000, .i32⟩
  | 51 => ⟨S2600000, .i32⟩
  | 52 => ⟨S2600000, .i32⟩
  | 53 => ⟨S2600000x1, .i32⟩
  | 54 => ⟨S2600000x32, .f32⟩
  | 55 => ⟨S2600000x1, .f32⟩
  | 56 => ⟨S2600000x32, .f32⟩
  | 57 => ⟨S2600000x32, .f32⟩
  | 58 => ⟨S_, .f32⟩
  | 59 => ⟨S100000x32, .f32⟩
  | 60 => ⟨S2600000x1, .i32⟩
  | 61 => ⟨S100000x32, .f32⟩
  | 62 => ⟨S1x32, .f32⟩
  | 63 => ⟨S100000x32, .f32⟩
  | 64 => ⟨S100000x32, .f32⟩
  | 65 => ⟨S_, .f32⟩
  | 66 => ⟨S100000x32, .f32⟩
  | 67 => ⟨S100000x32, .f32⟩
  | 68 => ⟨S100000, .i32⟩
  | 69 => ⟨S2600000, .i32⟩
  | 70 => ⟨S2600000, .i32⟩
  | 71 => ⟨S_, .f32⟩
  | 72 => ⟨S2600000, .f32⟩
  | 73 => ⟨S_, .f32⟩
  | 74 => ⟨S100000, .f32⟩
  | 75 => ⟨S2600000x1, .i32⟩
  | 76 => ⟨S100000, .f32⟩
  | 77 => ⟨S_, .f32⟩
  | 78 => ⟨S100000, .f32⟩
  | 79 => ⟨S100000, .i1⟩
  | 80 => ⟨S100000, .f32⟩
  | 81 => ⟨S_, .f32⟩
  | 82 => ⟨S100000, .f32⟩
  | 83 => ⟨S100000, .f32⟩
  | 84 => ⟨S_, .i32⟩
  | 85 => ⟨S2600000, .i32⟩
  | 86 => ⟨S2600000, .i1⟩
  | 87 => ⟨S_, .i32⟩
  | 88 => ⟨S2600000, .i32⟩
  | 89 => ⟨S2600000, .i32⟩
  | 90 => ⟨S2600000, .i32⟩
  | 91 => ⟨S2600000x1, .i32⟩
  | 92 => ⟨S2600000, .f32⟩
  | 93 => ⟨S_, .i32⟩
  | 94 => ⟨S2600000, .i32⟩
  | 95 => ⟨S2600000, .i1⟩
  | 96 => ⟨S_, .i32⟩
  | 97 => ⟨S2600000, .i32⟩
  | 98 => ⟨S2600000, .i32⟩
  | 99 => ⟨S2600000, .i32⟩
  | 100 => ⟨S2600000x1, .i32⟩
  | 101 => ⟨S2600000, .f32⟩
  | 102 => ⟨S2600000, .f32⟩
  | 103 => ⟨S100000x1, .f32⟩
  | 104 => ⟨S_, .i32⟩
  | 105 => ⟨S2600000, .i32⟩
  | 106 => ⟨S2600000, .i1⟩
  | 107 => ⟨S_, .i32⟩
  | 108 => ⟨S2600000, .i32⟩
  | 109 => ⟨S2600000, .i32⟩
  | 110 => ⟨S2600000, .i32⟩
  | 111 => ⟨S2600000x1, .i32⟩
  | 112 => ⟨S2600000x1, .f32⟩
  | 113 => ⟨S2600000x1, .f32⟩
  | 114 => ⟨S2600000x1, .f32⟩
  | 115 => ⟨S_, .f32⟩
  | 116 => ⟨S100000x1, .f32⟩
  | 117 => ⟨S2600000x1, .i32⟩
  | 118 => ⟨S100000x1, .f32⟩
  | 119 => ⟨S1x1, .f32⟩
  | 120 => ⟨S100000x1, .f32⟩
  | 121 => ⟨S100000x1, .f32⟩
  | 122 => ⟨S100000x1, .f32⟩
  | 123 => ⟨S100000x1, .f32⟩
  | 124 => ⟨S_, .f32⟩
  | 125 => ⟨S100000x1, .f32⟩
  | 126 => ⟨S100000x1, .f32⟩
  | 127 => ⟨S_, .f32⟩
  | _ => ⟨S100000x5, .f32⟩

abbrev hbmTy0_1 (i : Nat) : BufTy := match i % 128 with
  | 0 => ⟨S100000x1, .f32⟩
  | 1 => ⟨S100000x1, .f32⟩
  | _ => ⟨S100000x5, .f32⟩

abbrev hbmTy (i : Nat) : BufTy := match i / 128 with
  | 0 => hbmTy0_0 i
  | 1 => hbmTy0_1 i
  | _ => ⟨S100000x5, .f32⟩

abbrev bufTy : (tb : Table) → Fin (tcTables nBuf tb) → BufTy
  | .hbm, ⟨i, _⟩ => hbmTy i
  | _, _ => ⟨S100000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call1_cst : Ref sig .tc := ⟨.hbm, 65, rfl⟩
abbrev main_call1_v0 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_9 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_c_13 : Ref sig .tc := ⟨.hbm, 84, rfl⟩
abbrev main_v61 : Ref sig .tc := ⟨.hbm, 85, rfl⟩
abbrev main_v62 : Ref sig .tc := ⟨.hbm, 86, rfl⟩
abbrev main_c_14 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c_15 : Ref sig .tc := ⟨.hbm, 93, rfl⟩
abbrev main_v68 : Ref sig .tc := ⟨.hbm, 94, rfl⟩
abbrev main_v69 : Ref sig .tc := ⟨.hbm, 95, rfl⟩
abbrev main_c_16 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_c_17 : Ref sig .tc := ⟨.hbm, 104, rfl⟩
abbrev main_v77 : Ref sig .tc := ⟨.hbm, 105, rfl⟩
abbrev main_v78 : Ref sig .tc := ⟨.hbm, 106, rfl⟩
abbrev main_c_18 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_19 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_cst_20 : Ref sig .tc := ⟨.hbm, 124, rfl⟩
abbrev main_v94 : Ref sig .tc := ⟨.hbm, 125, rfl⟩
abbrev main_v95 : Ref sig .tc := ⟨.hbm, 126, rfl⟩
abbrev main_cst_21 : Ref sig .tc := ⟨.hbm, 127, rfl⟩
abbrev main_v96 : Ref sig .tc := ⟨.hbm, 128, rfl⟩
abbrev main_v97 : Ref sig .tc := ⟨.hbm, 129, rfl⟩

abbrev nD : Nat := 1
abbrev τ : Topo := Topo.v7x

variable {F : FTy → Type} [FloatOps F]

class Facts₀ : Prop where
  slices_S2x2500000_S1x2500000_0_0 : S2x2500000.Slices ![0, 0] S1x2500000
  shapeCasts_S1x2500000_S2500000 : S1x2500000.ShapeCasts S2500000
  slices_S2x2500000_S1x2500000_1_0 : S2x2500000.Slices ![1, 0] S1x2500000
  concatenates_S2500000_S100000_S2600000_d0 : Shape.Concatenates [S2500000, S100000] S2600000 0
  bcast_S_S2600000 : S_.BroadcastsInDim S2600000 (![] : Fin 0 → Fin S2600000.rank)
  bcast_S_S100000 : S_.BroadcastsInDim S100000 (![] : Fin 0 → Fin S100000.rank)
  bcast_S2600000_S2600000x1_0 : S2600000.BroadcastsInDim S2600000x1 (![0] : Fin 1 → Fin S2600000x1.rank)
  bcast_S2600000x1_S2600000x32_0_1 : S2600000x1.BroadcastsInDim S2600000x32 (![0, 1] : Fin 2 → Fin S2600000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S2600000x1_S2600000_n_0_0_1_wf : ScatterDims.WF S100000 S2600000x1 S2600000 [] [0] [0] 1
  gather_S100000_S2600000x1_S2600000_n_0_n_n_0_1_1_wf : GatherDims.WF S100000 S2600000x1 S2600000 [] [0] [] [0] [] 1 ![1]
  dot_S100000x5_S5x32_S100000x32_1_0_0_1_n_n_wf : DotDims.WF S100000x5 S5x32 S100000x32 [1] [0] [0] [1] [] []
  gather_S100000x32_S2600000x1_S2600000x32_1_0_n_n_0_1_132_wf : GatherDims.WF S100000x32 S2600000x1 S2600000x32 [1] [0] [] [0] [] 1 ![1, 32]
  scatter_S100000x32_S2600000x1_S2600000x32_1_0_0_1_wf : ScatterDims.WF S100000x32 S2600000x1 S2600000x32 [1] [0] [0] 1
  dot_S100000x32_S32x1_S100000x1_1_0_0_1_n_n_wf : DotDims.WF S100000x32 S32x1 S100000x1 [1] [0] [0] [1] [] []
  gather_S100000x1_S2600000x1_S2600000x1_1_0_n_n_0_1_11_wf : GatherDims.WF S100000x1 S2600000x1 S2600000x1 [1] [0] [] [0] [] 1 ![1, 1]
  scatter_S100000x1_S2600000x1_S2600000x1_1_0_0_1_wf : ScatterDims.WF S100000x1 S2600000x1 S2600000x1 [1] [0] [0] 1

variable [Facts₀]

def scatter_S100000_S2600000x1_S2600000_n_0_0_1 : ScatterDims S100000 S2600000x1 S2600000 where
  updateWindowDims := []
  insertedWindowDims := [0]
  scatterDimsToOperandDims := [0]
  indexVectorDim := 1
  wf := scatter_S100000_S2600000x1_S2600000_n_0_0_1_wf
def gather_S100000_S2600000x1_S2600000_n_0_n_n_0_1_1 : GatherDims S100000 S2600000x1 S2600000 where
  offsetDims := []
  collapsedSliceDims := [0]
  operandBatchingDims := []
  startIndicesBatchingDims := []
  startIndexMap := [0]
  indexVectorDim := 1
  sliceSizes := ![1]
  wf := gather_S100000_S2600000x1_S2600000_n_0_n_n_0_1_1_wf
def dot_S100000x5_S5x32_S100000x32_1_0_0_1_n_n : DotDims S100000x5 S5x32 S100000x32 where
  lhsContracting := [1]
  rhsContracting := [0]
  lhsNonContracting := [0]
  rhsNonContracting := [1]
  lhsBatch := []
  rhsBatch := []
  wf := dot_S100000x5_S5x32_S100000x32_1_0_0_1_n_n_wf
def gather_S100000x32_S2600000x1_S2600000x32_1_0_n_n_0_1_132 : GatherDims S100000x32 S2600000x1 S2600000x32 where
  offsetDims := [1]
  collapsedSliceDims := [0]
  operandBatchingDims := []
  startIndicesBatchingDims := []
  startIndexMap := [0]
  indexVectorDim := 1
  sliceSizes := ![1, 32]
  wf := gather_S100000x32_S2600000x1_S2600000x32_1_0_n_n_0_1_132_wf
def scatter_S100000x32_S2600000x1_S2600000x32_1_0_0_1 : ScatterDims S100000x32 S2600000x1 S2600000x32 where
  updateWindowDims := [1]
  insertedWindowDims := [0]
  scatterDimsToOperandDims := [0]
  indexVectorDim := 1
  wf := scatter_S100000x32_S2600000x1_S2600000x32_1_0_0_1_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf
def gather_S100000x1_S2600000x1_S2600000x1_1_0_n_n_0_1_11 : GatherDims S100000x1 S2600000x1 S2600000x1 where
  offsetDims := [1]
  collapsedSliceDims := [0]
  operandBatchingDims := []
  startIndicesBatchingDims := []
  startIndexMap := [0]
  indexVectorDim := 1
  sliceSizes := ![1, 1]
  wf := gather_S100000x1_S2600000x1_S2600000x1_1_0_n_n_0_1_11_wf
def scatter_S100000x1_S2600000x1_S2600000x1_1_0_0_1 : ScatterDims S100000x1 S2600000x1 S2600000x1 where
  updateWindowDims := [1]
  insertedWindowDims := [0]
  scatterDimsToOperandDims := [0]
  indexVectorDim := 1
  wf := scatter_S100000x1_S2600000x1_S2600000x1_1_0_0_1_wf

class Facts : Prop extends Facts₀ where

variable [Facts]
-- ==== Proof.KernelSpec.lean ====
/-
  The kernel's value as ONE function of @main's arguments, stage by stage.

  Both programs build the same edge lists (source ++ loop, destination ++ loop), degrees, inverse square roots and edge
  weights from the integer argument, by the same operations in the same order; those shared stages are taken here from the
  reference's own stage functions (the destination list as `[E, 1]` scatter indices, the wrapped source list as `[E, 1]` gather
  indices, the edge weight as an `[E, 1]` column), so that the two sides name them by one term. Over them the kernel:
    * aggregates the RAW features: gathers the source rows of `x`, scales each by its edge weight, scatter-adds at the
      destination rows (`aggK`, `[100000, 5]`);
    * applies the two-layer dense map row by row (`mlpOf`: rectified `A · W1 + b1`, times `W2`);
    * aggregates that `[100000, 1]` column the same way (`agg2Of`);
    * adds the last bias and applies the logistic function, on the column laid out as `[100, 1000]` and back (`resultK`).
-/
import proofs.«159857_j61314953118384_2_alg».proof.Proof.RefReadPatched
import proofs.«159857_j61314953118384_2_alg».proof.Proof.Gen.KernelIdeal
import Idealize.ShloMosaic.Lib.ValueIdx

noncomputable section

namespace Cert.GcnSpec

open Idealize.ShloMosaic Idealize.ShloMosaic.ValueIdx
open Cert.ReferenceIdeal.ReadP (val_main_v43 val_main_v37 val_main_v39)

/-- Row `p` of the two-layer dense map: rectified `A (p, ·) · W1 + B (0, ·)`, times `W2`. -/
def mlpRow (A : Cert.KernelIdeal.S100000x5.Idx → EReal) (W1 : Cert.KernelIdeal.S5x32.Idx → EReal)
    (B : Cert.KernelIdeal.S1x32.Idx → EReal) (W2 : Cert.KernelIdeal.S32x1.Idx → EReal) (p : Fin 100000) : EReal :=
  ∑ k : Fin 32, max ((∑ c : Fin 5, A (ix2 p c) * W1 (ix2 c k)) + B (ix2 (0 : Fin 1) k)) 0 * W2 (ix2 k (0 : Fin 1))

/-- The `[100000, 1]` array of those rows. -/
def mlpOf (A : Cert.KernelIdeal.S100000x5.Idx → EReal) (W1 : Cert.KernelIdeal.S5x32.Idx → EReal)
    (B : Cert.KernelIdeal.S1x32.Idx → EReal) (W2 : Cert.KernelIdeal.S32x1.Idx → EReal) :
    Cert.KernelIdeal.S100000x1.Idx → EReal :=
  fun i => mlpRow A W1 B W2 ⟨(i 0).val, idx2_lt0 i⟩

/-- The raw features aggregated over incoming edges: source rows of `x` gathered, scaled by the edge weight, added at the
    destination rows, from zero. -/
def aggK (x : FVec Ideal Cert.KernelIdeal.S100000x5 .f32) (a1 : IVec Cert.KernelIdeal.S2x2500000 32) :
    FVec Ideal Cert.KernelIdeal.S100000x5 .f32 :=
  Host.scatterAdd Cert.KernelIdeal.scatter_S100000x5_S2600000x1_S2600000x5_1_0_0_1
    (broadcastInDim Cert.KernelIdeal.S100000x5 ![] Cert.KernelIdeal.Gen.bcast_S_S100000x5
      (constant (F := Ideal) Cert.KernelIdeal.S_ .f32 0x00000000#32))
    (val_main_v43 (F := Ideal) a1)
    (mulf (Host.gather Cert.KernelIdeal.gather_S100000x5_S2600000x1_S2600000x5_1_0_n_n_0_1_15 x (val_main_v37 (F := Ideal) a1))
      (broadcastInDim Cert.KernelIdeal.S2600000x5 ![0, 1] Cert.KernelIdeal.Gen.bcast_S2600000x1_S2600000x5_0_1
        (val_main_v39 (F := Ideal) a1)))

/-- The bias vector laid out as one row. -/
def b1Row (b1 : FVec Ideal Cert.KernelIdeal.S32 .f32) : FVec Ideal Cert.KernelIdeal.S1x32 .f32 :=
  shapeCast Cert.KernelIdeal.S1x32 b1 Cert.KernelIdeal.Gen.shapeCasts_S32_S1x32

/-- A `[100000, 1]` column aggregated over incoming edges: source rows gathered, scaled by the edge weight, added at the
    destination rows, from zero. -/
def agg2Of (lin : FVec Ideal Cert.KernelIdeal.S100000x1 .f32) (a1 : IVec Cert.KernelIdeal.S2x2500000 32) :
    FVec Ideal Cert.KernelIdeal.S100000x1 .f32 :=
  Host.scatterAdd Cert.KernelIdeal.scatter_S100000x1_S2600000x1_S2600000x1_1_0_0_1
    (broadcastInDim Cert.KernelIdeal.S100000x1 ![] Cert.KernelIdeal.Gen.bcast_S_S100000x1
      (constant (F := Ideal) Cert.KernelIdeal.S_ .f32 0x00000000#32))
    (val_main_v43 (F := Ideal) a1)
    (mulf (Host.gather Cert.KernelIdeal.gather_S100000x1_S2600000x1_S2600000x1_1_0_n_n_0_1_11 lin (val_main_v37 (F := Ideal) a1))
      (val_main_v39 (F := Ideal) a1))

/-- The bias-and-logistic map on a `[100, 1000]` array with a `[1, 1]` bias. -/
def sigOf (A : Cert.KernelIdeal.S100x1000.Idx → EReal) (b : Cert.KernelIdeal.S1x1.Idx → EReal) :
    Cert.KernelIdeal.S100x1000.Idx → EReal :=
  fun i => Ideal.logistic (A i + b (ix2 (0 : Fin 1) (0 : Fin 1)))

/-- The kernel's result as a function of @main's six arguments. -/
def resultK (x : FVec Ideal Cert.KernelIdeal.S100000x5 .f32) (a1 : IVec Cert.KernelIdeal.S2x2500000 32)
    (W1 : FVec Ideal Cert.KernelIdeal.S5x32 .f32) (b1 : FVec Ideal Cert.KernelIdeal.S32 .f32)
    (W2 : FVec Ideal Cert.KernelIdeal.S32x1 .f32) (b2 : FVec Ideal Cert.KernelIdeal.S1 .f32) :
    FVec Ideal Cert.KernelIdeal.S100000x1 .f32 :=
  shapeCast Cert.KernelIdeal.S100000x1
    (sigOf (shapeCast Cert.KernelIdeal.S100x1000 (agg2Of (mlpOf (aggK x a1) W1 (b1Row b1) W2) a1)
        Cert.KernelIdeal.Gen.shapeCasts_S100000x1_S100x1000)
      (shapeCast Cert.KernelIdeal.S1x1 b2 Cert.KernelIdeal.Gen.shapeCasts_S1_S1x1))
    Cert.KernelIdeal.Gen.shapeCasts_S100x1000_S100000x1

end Cert.GcnSpec

end
-- ==== Proof.LibContractSum.lean ====
/-
  A matrix product with ONE contracted axis, into the zero accumulator, read at an output index on the extended reals.

  The product's entry at `j` is the sum, over the contraction index, of the left operand at `lhsIdx j ·` times the right
  operand at `rhsIdx j ·`. When one axis of extent `K` is contracted, the contraction index is its one coordinate, so the
  entry is a sum over `k : Fin K` of the operands at whatever indices the dimension record names there — given by the
  caller as two families `li`, `ri` with the two equations that say so. The statement does not depend on which axes of
  the operands are contracted: row by column, column by column, or any other single-axis contraction.
-/
import Idealize.ShloMosaic.PureOps.Ideal.Laws
import Idealize.ShloMosaic.Lib.ValueIdx

namespace Cert.LibContractSum

open Idealize.ShloMosaic Idealize.ShloMosaic.ValueIdx

/-- A `tpu.matmul` into the f32 zero splat, one contracted axis of extent `K`: at output index `j` it is
    `∑ k : Fin K, lhs (li k) * rhs (ri k)`, where `li k` / `ri k` are the operand indices the dimension record gives at
    `j` and contraction coordinate `k` (`hl`, `hr`). -/
theorem matmul_zero_sum {sl sr so : Shape} {φ₁ φ₂ : FTy} (D : DotDims sl sr so) (prec : Option ContractPrecision) (K : Nat)
    (hrank : D.contr.rank = 1) (hsize : D.contr.size ⟨0, by omega⟩ = K)
    (lhs : FVec Ideal sl φ₁) (rhs : FVec Ideal sr φ₂) (j : so.Idx) (li : Fin K → sl.Idx) (ri : Fin K → sr.Idx)
    (hl : ∀ k, D.lhsIdx j ((contrEquiv1 D K hrank hsize).symm k) = li k)
    (hr : ∀ k, D.rhsIdx j ((contrEquiv1 D K hrank hsize).symm k) = ri k) :
    FloatOps.matmul D prec lhs rhs (constant so .f32 0x00000000#32) j = ∑ k : Fin K, lhs (li k) * rhs (ri k) := by
  rw [Ideal.matmul_constant_zero_apply, ← Equiv.sum_comp (contrEquiv1 D K hrank hsize).symm]
  exact Finset.sum_congr rfl fun k _ => by rw [hl k, hr k]

end Cert.LibContractSum
-- ==== Proof.LibMatmul2D.lean ====
/-
  A 2-D matrix product into the zero accumulator, read at an output entry on the extended reals, in the three ways a
  single axis of each operand can be contracted:
    * rows by columns   — [M, K] against [K, N], left axis 1 with right axis 0:   ∑ k, lhs (m, k) * rhs (k, n);
    * columns by columns — [K, M] against [K, N], left axis 0 with right axis 0:  ∑ k, lhs (k, m) * rhs (k, n);
    * columns by rows    — [K, M] against [N, K], left axis 0 with right axis 1:  ∑ k, lhs (k, m) * rhs (n, k).
  In each the result is [M, N]: the left operand's free axis first, the right operand's free axis second. The
  dimension record is the one built from the literal axis lists; its well-formedness proof is a parameter, so the
  statements apply to any record with those lists whatever proves it well formed. Over any extents M, K, N.
-/
import Idealize.ShloMosaic.PureOps.Ideal.Laws
import Idealize.ShloMosaic.Lib.ValueIdx
import proofs.«159857_j61314953118384_2_alg».proof.Proof.LibContractSum

namespace Cert.LibMatmul2D

open Idealize.ShloMosaic Idealize.ShloMosaic.ValueIdx

variable {M K N : ℕ} {φ₁ φ₂ : FTy}

/-- Rows by columns: entry (m, n) is the sum over k of lhs (m, k) * rhs (k, n). -/
theorem rows_cols
    (wf : DotDims.WF (⟨2, ![M, K]⟩ : Shape) (⟨2, ![K, N]⟩ : Shape) (⟨2, ![M, N]⟩ : Shape)
      ([1] : List (Fin 2)) ([0] : List (Fin 2)) ([0] : List (Fin 2)) ([1] : List (Fin 2)) [] [])
    (prec : Option ContractPrecision) (lhs : FVec Ideal (⟨2, ![M, K]⟩ : Shape) φ₁) (rhs : FVec Ideal (⟨2, ![K, N]⟩ : Shape) φ₂)
    (m : Fin M) (n : Fin N) :
    FloatOps.matmul (⟨[1], [0], [0], [1], [], [], wf⟩ : DotDims (⟨2, ![M, K]⟩ : Shape) (⟨2, ![K, N]⟩ : Shape) (⟨2, ![M, N]⟩ : Shape))
        prec lhs rhs (constant (⟨2, ![M, N]⟩ : Shape) .f32 0x00000000#32) (ix2 m n)
      = ∑ k : Fin K, lhs (ix2 m k) * rhs (ix2 k n) := by
  refine Cert.LibContractSum.matmul_zero_sum _ prec K rfl rfl lhs rhs (ix2 m n) (fun k => ix2 m k) (fun k => ix2 k n)
    (fun k => ?_) (fun k => ?_)
  · funext a; apply Fin.ext
    match a with
    | ⟨0, _⟩ =>
      unfold DotDims.lhsIdx
      rw [dif_neg, dif_pos]
      case hc => exact List.mem_singleton.mpr (Fin.ext rfl)
      case hnc => exact List.not_mem_nil
      rfl
    | ⟨1, _⟩ => exact (DotDims.lhsIdx_val_of_single _ rfl _ _).trans (contrEquiv1_symm_val _ K rfl rfl k)
  · funext a; apply Fin.ext
    match a with
    | ⟨0, _⟩ => exact (DotDims.rhsIdx_val_of_single _ rfl _ _).trans (contrEquiv1_symm_val _ K rfl rfl k)
    | ⟨1, _⟩ =>
      unfold DotDims.rhsIdx
      rw [dif_neg, dif_pos]
      case hc => exact List.mem_singleton.mpr (Fin.ext rfl)
      case hnc => exact List.not_mem_nil
      rfl

/-- Columns by columns: entry (m, n) is the sum over k of lhs (k, m) * rhs (k, n). -/
theorem cols_cols
    (wf : DotDims.WF (⟨2, ![K, M]⟩ : Shape) (⟨2, ![K, N]⟩ : Shape) (⟨2, ![M, N]⟩ : Shape)
      ([0] : List (Fin 2)) ([0] : List (Fin 2)) ([1] : List (Fin 2)) ([1] : List (Fin 2)) [] [])
    (prec : Option ContractPrecision) (lhs : FVec Ideal (⟨2, ![K, M]⟩ : Shape) φ₁) (rhs : FVec Ideal (⟨2, ![K, N]⟩ : Shape) φ₂)
    (m : Fin M) (n : Fin N) :
    FloatOps.matmul (⟨[0], [0], [1], [1], [], [], wf⟩ : DotDims (⟨2, ![K, M]⟩ : Shape) (⟨2, ![K, N]⟩ : Shape) (⟨2, ![M, N]⟩ : Shape))
        prec lhs rhs (constant (⟨2, ![M, N]⟩ : Shape) .f32 0x00000000#32) (ix2 m n)
      = ∑ k : Fin K, lhs (ix2 k m) * rhs (ix2 k n) := by
  refine Cert.LibContractSum.matmul_zero_sum _ prec K rfl rfl lhs rhs (ix2 m n) (fun k => ix2 k m) (fun k => ix2 k n)
    (fun k => ?_) (fun k => ?_)
  · funext a; apply Fin.ext
    match a with
    | ⟨0, _⟩ => exact (DotDims.lhsIdx_val_of_single _ rfl _ _).trans (contrEquiv1_symm_val _ K rfl rfl k)
    | ⟨1, _⟩ =>
      unfold DotDims.lhsIdx
      rw [dif_neg, dif_pos]
      case hc => exact List.mem_singleton.mpr (Fin.ext rfl)
      case hnc => exact List.not_mem_nil
      rfl
  · funext a; apply Fin.ext
    match a with
    | ⟨0, _⟩ => exact (DotDims.rhsIdx_val_of_single _ rfl _ _).trans (contrEquiv1_symm_val _ K rfl rfl k)
    | ⟨1, _⟩ =>
      unfold DotDims.rhsIdx
      rw [dif_neg, dif_pos]
      case hc => exact List.mem_singleton.mpr (Fin.ext rfl)
      case hnc => exact List.not_mem_nil
      rfl

/-- Columns by rows: entry (m, n) is the sum over k of lhs (k, m) * rhs (n, k). -/
theorem cols_rows
    (wf : DotDims.WF (⟨2, ![K, M]⟩ : Shape) (⟨2, ![N, K]⟩ : Shape) (⟨2, ![M, N]⟩ : Shape)
      ([0] : List (Fin 2)) ([1] : List (Fin 2)) ([1] : List (Fin 2)) ([0] : List (Fin 2)) [] [])
    (prec : Option ContractPrecision) (lhs : FVec Ideal (⟨2, ![K, M]⟩ : Shape) φ₁) (rhs : FVec Ideal (⟨2, ![N, K]⟩ : Shape) φ₂)
    (m : Fin M) (n : Fin N) :
    FloatOps.matmul (⟨[0], [1], [1], [0], [], [], wf⟩ : DotDims (⟨2, ![K, M]⟩ : Shape) (⟨2, ![N, K]⟩ : Shape) (⟨2, ![M, N]⟩ : Shape))
        prec lhs rhs (constant (⟨2, ![M, N]⟩ : Shape) .f32 0x00000000#32) (ix2 m n)
      = ∑ k : Fin K, lhs (ix2 k m) * rhs (ix2 n k) := by
  refine Cert.LibContractSum.matmul_zero_sum _ prec K rfl rfl lhs rhs (ix2 m n) (fun k => ix2 k m) (fun k => ix2 n k)
    (fun k => ?_) (fun k => ?_)
  · funext a; apply Fin.ext
    match a with
    | ⟨0, _⟩ => exact (DotDims.lhsIdx_val_of_single _ rfl _ _).trans (contrEquiv1_symm_val _ K rfl rfl k)
    | ⟨1, _⟩ =>
      unfold DotDims.lhsIdx
      rw [dif_neg, dif_pos]
      case hc => exact List.mem_singleton.mpr (Fin.ext rfl)
      case hnc => exact List.not_mem_nil
      rfl
  · funext a; apply Fin.ext
    match a with
    | ⟨0, _⟩ =>
      unfold DotDims.rhsIdx
      rw [dif_neg, dif_pos]
      case hc => exact List.mem_singleton.mpr (Fin.ext rfl)
      case hnc => exact List.not_mem_nil
      rfl
    | ⟨1, _⟩ => exact (DotDims.rhsIdx_val_of_single _ rfl _ _).trans (contrEquiv1_symm_val _ K rfl rfl k)

end Cert.LibMatmul2D
-- ==== Proof.KernelBodies.lean ====
/-
  The two kernel bodies read at one entry, on the extended reals.

  The fused body computes, for its block of 10000 rows, `max (a · W1 + b1, 0) · W2`: two matrix products into zero
  accumulators, a bias row broadcast down the rows, a maximum with zero; the changes of float format in between are the
  identity on extended reals. Entry `(r, 0)` of its result is therefore
  `∑ k, max ((∑ c, a (r, c) * W1 (c, k)) + b1 (0, k)) 0 * W2 (k, 0)`.
  The second body adds the one bias entry to every entry of its block and applies the logistic function.
-/
import proofs.«159857_j61314953118384_2_alg».proof.Proof.Gen.KernelIdeal.Skeleton
import proofs.«159857_j61314953118384_2_alg».proof.Proof.LibMatmul2D
import Idealize.ShloMosaic.Lib.Pipeline.Value
import Idealize.ShloMosaic.Lib.ValueIdx
import Idealize.ShloMosaic.PureOps.Ideal.Laws

noncomputable section

namespace Cert.KernelIdeal.Bodies

open Cert.KernelIdeal Cert.KernelIdeal.Gen Idealize.ShloMosaic Idealize.ShloMosaic.ValueIdx

/-- The bias row `[1, 32]` broadcast down 10000 rows reads, at `(r, k)`, its entry `(0, k)`. -/
theorem biasRow_apply (v : Vec Ideal S1x32 .f32) (r : Fin 10000) (k : Fin 32) :
    broadcastTo S10000x32 v broadcasts_S1x32_S10000x32 (ix2 r k) = v (ix2 (0 : Fin 1) k) :=
  broadcastTo_apply v broadcasts_S1x32_S10000x32 (ix2 r k) (ix2 (0 : Fin 1) k)
    (fun a => by match a with | ⟨0, _⟩ => rfl | ⟨1, _⟩ => rfl)

/-- The fused body's result at row `r`: the second product's sum over the 32 hidden channels of the rectified first
    product plus bias, times the second weight. -/
theorem mlp_apply (x0 : Vec Ideal S10000x5 .f32) (x1 : Vec Ideal S5x32 .f32) (x2 : Vec Ideal S1x32 .f32)
    (x3 : Vec Ideal S32x1 .f32) (r : Fin 10000) :
    k0_pay1 (F := Ideal) x0 x1 x2 x3 (ix2 r (0 : Fin 1))
      = ∑ k : Fin 32, max ((∑ c : Fin 5, x0 (ix2 r c) * x1 (ix2 c k)) + x2 (ix2 (0 : Fin 1) k)) 0 * x3 (ix2 k (0 : Fin 1)) := by
  unfold k0_pay1
  rw [shapeCast_self, shapeCast_self]
  refine (Cert.LibMatmul2D.rows_cols (M := 10000) (K := 32) (N := 1) dot_S10000x32_S32x1_S10000x1_1_0_0_1_n_n_wf none _ _ r 0).trans ?_
  refine Finset.sum_congr rfl fun k _ => ?_
  refine congrArg (· * x3 (ix2 k (0 : Fin 1))) ?_
  rw [truncf_apply, maximumf_apply, addf_apply, broadcast_apply]
  rw [biasRow_apply, Ideal.ofBits_def, Ideal.ofBits_zero_f32]
  refine congrArg (fun z => max (z + x2 (ix2 (0 : Fin 1) k)) 0) ?_
  exact Cert.LibMatmul2D.rows_cols (M := 10000) (K := 5) (N := 32) dot_S10000x5_S5x32_S10000x32_1_0_0_1_n_n_wf none _ _ r k

/-- The one bias entry `[1, 1]` broadcast over the `[100, 1000]` block reads its entry `(0, 0)` everywhere. -/
theorem biasOne_apply (v : Vec Ideal S1x1 .f32) (p : Fin 100) (q : Fin 1000) :
    broadcastTo S100x1000 v broadcasts_S1x1_S100x1000 (ix2 p q) = v (ix2 (0 : Fin 1) (0 : Fin 1)) :=
  broadcastTo_apply v broadcasts_S1x1_S100x1000 (ix2 p q) (ix2 (0 : Fin 1) (0 : Fin 1))
    (fun a => by match a with | ⟨0, _⟩ => rfl | ⟨1, _⟩ => rfl)

/-- The second body's result at `(p, q)`: the logistic function of the entry plus the bias. -/
theorem sigmoid_apply (x0 : Vec Ideal S100x1000 .f32) (x1 : Vec Ideal S1x1 .f32) (p : Fin 100) (q : Fin 1000) :
    k1_pay1 (F := Ideal) x0 x1 (ix2 p q) = Ideal.logistic (x0 (ix2 p q) + x1 (ix2 (0 : Fin 1) (0 : Fin 1))) := by
  unfold k1_pay1
  rw [shapeCast_self, shapeCast_self]
  show Ideal.logistic (addf (F := Ideal) (φ := .f32) x0 (broadcastTo S100x1000 x1 broadcasts_S1x1_S100x1000) (ix2 p q)) = _
  rw [addf_apply, biasOne_apply]

end Cert.KernelIdeal.Bodies

end
-- ==== Proof.KernelRegions.lean ====
/-
  From blocks to whole arrays, for the two kernel regions, on the extended reals.

  The fused region walks ten points; at point `t` its output block is rows `10000 t … 10000 t + 9999` of the `[100000, 1]`
  result, computed from the same rows of the aggregated features and from the two weight matrices and the bias row, which are
  whole at every point. The ten blocks tile the result, so after the region the result array is ONE function of the arrays
  the region found: row `p` holds `∑ k, max ((∑ c, A (p, c) * W1 (c, k)) + B (0, k)) 0 * W2 (k, 0)`.
  The second region has one point whose block is the whole `[100, 1000]` array: entry `(p, q)` holds the logistic function
  of the entry found there plus the one bias entry.
-/
import proofs.«159857_j61314953118384_2_alg».proof.Proof.Gen.KernelIdeal.Frame
import proofs.«159857_j61314953118384_2_alg».proof.Proof.KernelBodies
import proofs.«159857_j61314953118384_2_alg».proof.Proof.KernelSpec
import Idealize.ShloMosaic.Lib.Pipeline.Value
import Idealize.ShloMosaic.Lib.ValueIdx

set_option maxRecDepth 16384

noncomputable section

namespace Cert.KernelIdeal.Regions

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)
open Cert.GcnSpec (mlpRow mlpOf sigOf)

-- the TensorCore's buffer contents when a region is entered: a parameter, instantiated per region by the run
variable (V : (c : Dev nD) → (b : Ref sig .tc) → Buf (Elt Ideal) ((c : Thread nD τ).loc b))

theorem zeroOff : (![0, 0] : Fin 2 → Nat) = fun _ => 0 := funext fun a => by fin_cases a <;> rfl

/-! ## The fused region -/

/-- The printed index maps over the grid: the row window and the output move together, block `t` at point `t`; the
    weights and the bias row stay at block 0. -/
theorem indexFacts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The row window's block at point `t` is rows `10000 t …` of its array. -/
theorem rowsBlock_apply (c : Dev nD) (t : Fin cfg0.N) (y : S10000x5.Idx) (i : S100000x5.Idx)
    (h0 : (i 0).val = t.val * 10000 + (y 0).val) (h1 : (i 1).val = (y 1).val) :
    (iblk0 V c 0 t : Vec Ideal S10000x5 .f32) y = (V c main_v43 : S100000x5.Idx → Elt Ideal .f32) i := by
  obtain ⟨e0, e1, -⟩ := indexFacts0 t
  unfold iblk0
  rw [View.read_apply]
  show V c main_v43 _ = V c main_v43 i
  refine congrArg (V c main_v43) ?_
  funext a
  apply Fin.ext
  match a with
  | ⟨0, _⟩ => show win0_0.index t (0 : Fin 2) * 10000 + 1 * (y 0).val = (i 0).val; rw [e0, h0]; omega
  | ⟨1, _⟩ => show win0_0.index t (1 : Fin 2) * 5 + 1 * (y 1).val = (i 1).val; rw [e1, h1]; omega

/-- The first weight's block is its whole array, at every point. -/
theorem w1Block (c : Dev nD) (t : Fin cfg0.N) : (iblk0 V c 1 t : Vec Ideal S5x32 .f32) = (V c main_arg2 : S5x32.Idx → Elt Ideal .f32) := by
  obtain ⟨-, -, e0, e1, -⟩ := indexFacts0 t
  funext y
  unfold iblk0
  rw [View.read_apply]
  show V c main_arg2 _ = V c main_arg2 y
  refine congrArg (V c main_arg2) ?_
  funext a
  apply Fin.ext
  match a with
  | ⟨0, _⟩ => show win0_1.index t (0 : Fin 2) * 5 + 1 * (y 0).val = (y 0).val; rw [e0]; omega
  | ⟨1, _⟩ => show win0_1.index t (1 : Fin 2) * 32 + 1 * (y 1).val = (y 1).val; rw [e1]; omega

/-- The bias row's block is its whole array, at every point. -/
theorem biasBlock (c : Dev nD) (t : Fin cfg0.N) : (iblk0 V c 2 t : Vec Ideal S1x32 .f32) = (V c main_v44 : S1x32.Idx → Elt Ideal .f32) := by
  obtain ⟨-, -, -, -, e0, e1, -⟩ := indexFacts0 t
  funext y
  unfold iblk0
  rw [View.read_apply]
  show V c main_v44 _ = V c main_v44 y
  refine congrArg (V c main_v44) ?_
  funext a
  apply Fin.ext
  match a with
  | ⟨0, _⟩ => show win0_2.index t (0 : Fin 2) * 1 + 1 * (y 0).val = (y 0).val; rw [e0]; omega
  | ⟨1, _⟩ => show win0_2.index t (1 : Fin 2) * 32 + 1 * (y 1).val = (y 1).val; rw [e1]; omega

/-- The second weight's block is its whole array, at every point. -/
theorem w2Block (c : Dev nD) (t : Fin cfg0.N) : (iblk0 V c 3 t : Vec Ideal S32x1 .f32) = (V c main_arg4 : S32x1.Idx → Elt Ideal .f32) := by
  obtain ⟨-, -, -, -, -, -, e0, e1, -⟩ := indexFacts0 t
  funext y
  unfold iblk0
  rw [View.read_apply]
  show V c main_arg4 _ = V c main_arg4 y
  refine congrArg (V c main_arg4) ?_
  funext a
  apply Fin.ext
  match a with
  | ⟨0, _⟩ => show win0_3.index t (0 : Fin 2) * 32 + 1 * (y 0).val = (y 0).val; rw [e0]; omega
  | ⟨1, _⟩ => show win0_3.index t (1 : Fin 2) * 1 + 1 * (y 1).val = (y 1).val; rw [e1]; omega

/-- The fused body's result at any entry of its block, over variables: the entry's row of the rectified dense map. -/
theorem mlp_entry (x0 : Vec Ideal S10000x5 .f32) (x1 : Vec Ideal S5x32 .f32) (x2 : Vec Ideal S1x32 .f32)
    (x3 : Vec Ideal S32x1 .f32) (j : S10000x1.Idx) :
    k0_pay1 (F := Ideal) x0 x1 x2 x3 j
      = ∑ k : Fin 32, max ((∑ c : Fin 5, x0 (ix2 (⟨(j 0).val, idx2_lt0 j⟩ : Fin 10000) c) * x1 (ix2 c k)) + x2 (ix2 (0 : Fin 1) k)) 0
          * x3 (ix2 k (0 : Fin 1)) := by
  obtain ⟨r, q, rfl⟩ : ∃ (r : Fin 10000) (q : Fin 1), j = ix2 r q := ⟨j 0, j 1, eq_ix2 j⟩
  obtain rfl : q = 0 := Subsingleton.elim _ _
  exact Bodies.mlp_apply x0 x1 x2 x3 r

/-- WHAT POINT `t` WRITES BACK is block `t` of the dense map of the arrays the region found. -/
theorem flushed0 (c : Dev nD) (t : Fin cfg0.N) :
    (dat0 V c).flushed 4 t = ((cfg0.win 4).blk t).view.read (Elt Ideal)
      (mlpOf (V c main_v43) (V c main_arg2) (V c main_v44) (V c main_arg4)) := by
  show (cfg0.win 4).cut (grid0.coords t) ((dat0 V c).after 4 t) = _
  rw [after0_4]
  unfold out0_4
  rw [View.canon_unit_zero zeroOff]
  simp only [View.ld_unit_zero (S := S10000x5) zeroOff, View.ld_unit_zero (S := S5x32) zeroOff,
    View.ld_unit_zero (S := S1x32) zeroOff, View.ld_unit_zero (S := S32x1) zeroOff]
  rw [w1Block V c t, biasBlock V c t, w2Block V c t]
  obtain ⟨-, -, -, -, -, -, -, -, e0, e1⟩ := indexFacts0 t
  funext j
  show k0_pay1 (F := Ideal) (iblk0 V c 0 t) (V c main_arg2) (V c main_v44) (V c main_arg4) j
    = mlpOf (V c main_v43) (V c main_arg2) (V c main_v44) (V c main_arg4) (((cfg0.win 4).blk t).view.emb j)
  refine (mlp_entry (iblk0 V c 0 t) (V c main_arg2) (V c main_v44) (V c main_arg4) j).trans ?_
  unfold mlpOf mlpRow
  refine Finset.sum_congr rfl fun k _ => ?_
  refine congrArg (fun z => max (z + (V c main_v44 : S1x32.Idx → EReal) (ix2 (0 : Fin 1) k)) 0
    * (V c main_arg4 : S32x1.Idx → EReal) (ix2 k (0 : Fin 1))) ?_
  refine Finset.sum_congr rfl fun cc _ => ?_
  refine congrArg (· * (V c main_arg2 : S5x32.Idx → EReal) (ix2 cc k)) ?_
  refine rowsBlock_apply V c t _ _ ?_ rfl
  show win0_4.index t (0 : Fin 2) * 10000 + 1 * (j 0).val = t.val * 10000 + (j 0).val
  rw [e0]; omega

/-- An index of the result is in point `t`'s block iff each coordinate is in the block's range on its axis. -/
theorem mem_block0 (t : Fin cfg0.N) (i : S100000x1.Idx) :
    i ∈ ((cfg0.win 4).blk t).view.set ↔ ∀ a : Fin 2, win0_4.index t a * S10000x1.size a ≤ (i a).val
      ∧ (i a).val < win0_4.index t a * S10000x1.size a + S10000x1.size a := by
  show i ∈ ((View.whole main_v45).slice (win0_4.rect t)).set ↔ _
  rw [View.set_slice_whole, Rect.mem_set_unit]
  exact Iff.rfl

/-- Every one of the ten row blocks is some point's. -/
theorem points_onto0 : ∀ q : Fin 10, ∃ t : Fin cfg0.N, win0_4.index t = ![q.val, 0] :=
  (by decide +kernel : ∀ q : Fin 10, ∃ t : Fin grid0.N, win0_4.index t = ![q.val, 0])

/-- THE RESULT after the fused region: the dense map of the arrays the region found; row `p` is in block `p / 10000`. -/
theorem final0 (c : Dev nD) :
    (dat0 V c).arrAt 4 cfg0.N = mlpOf (V c main_v43) (V c main_arg2) (V c main_v44) (V c main_arg4) :=
  (dat0 V c).arrAt_eq_of_cover 4 _ (fun t _ => flushed0 V c t) fun i => by
    have hi0 : (i 0).val < 100000 := (i 0).isLt
    have hi1 : (i 1).val < 1 := (i 1).isLt
    obtain ⟨t, ht⟩ := points_onto0 ⟨(i 0).val / 10000, by omega⟩
    have q0 : win0_4.index t (0 : Fin 2) = (i 0).val / 10000 := congrFun ht 0
    have q1 : win0_4.index t (1 : Fin 2) = 0 := congrFun ht 1
    refine ⟨t, flush0_4 t, ?_⟩
    rw [mem_block0]
    intro a
    match a with
    | ⟨0, _⟩ => show win0_4.index t (0 : Fin 2) * 10000 ≤ (i 0).val ∧ (i 0).val < win0_4.index t (0 : Fin 2) * 10000 + 10000; omega
    | ⟨1, _⟩ => show win0_4.index t (1 : Fin 2) * 1 ≤ (i 1).val ∧ (i 1).val < win0_4.index t (1 : Fin 2) * 1 + 1; omega

/-! ## The bias-and-logistic region -/

/-- Its one point's blocks are the whole arrays. -/
theorem indexFacts1 : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0 :=
  (by decide +kernel : ∀ t : Fin grid1.N, _)

theorem dataBlock (c : Dev nD) (t : Fin cfg1.N) : (iblk1 V c 0 t : Vec Ideal S100x1000 .f32) = (V c main_v58 : S100x1000.Idx → Elt Ideal .f32) := by
  obtain ⟨e0, e1, -⟩ := indexFacts1 t
  funext y
  unfold iblk1
  rw [View.read_apply]
  show V c main_v58 _ = V c main_v58 y
  refine congrArg (V c main_v58) ?_
  funext a
  apply Fin.ext
  match a with
  | ⟨0, _⟩ => show win1_0.index t (0 : Fin 2) * 100 + 1 * (y 0).val = (y 0).val; rw [e0]; omega
  | ⟨1, _⟩ => show win1_0.index t (1 : Fin 2) * 1000 + 1 * (y 1).val = (y 1).val; rw [e1]; omega

theorem biasOneBlock (c : Dev nD) (t : Fin cfg1.N) : (iblk1 V c 1 t : Vec Ideal S1x1 .f32) = (V c main_v59 : S1x1.Idx → Elt Ideal .f32) := by
  obtain ⟨-, -, e0, e1, -⟩ := indexFacts1 t
  funext y
  unfold iblk1
  rw [View.read_apply]
  show V c main_v59 _ = V c main_v59 y
  refine congrArg (V c main_v59) ?_
  funext a
  apply Fin.ext
  match a with
  | ⟨0, _⟩ => show win1_1.index t (0 : Fin 2) * 1 + 1 * (y 0).val = (y 0).val; rw [e0]; omega
  | ⟨1, _⟩ => show win1_1.index t (1 : Fin 2) * 1 + 1 * (y 1).val = (y 1).val; rw [e1]; omega

/-- The second body's result at any entry of its block, over variables. -/
theorem sigmoid_entry (x0 : Vec Ideal S100x1000 .f32) (x1 : Vec Ideal S1x1 .f32) (j : S100x1000.Idx) :
    k1_pay1 (F := Ideal) x0 x1 j = Ideal.logistic (x0 j + x1 (ix2 (0 : Fin 1) (0 : Fin 1))) := by
  obtain ⟨p, q, rfl⟩ : ∃ (p : Fin 100) (q : Fin 1000), j = ix2 p q := ⟨j 0, j 1, eq_ix2 j⟩
  exact Bodies.sigmoid_apply x0 x1 p q

/-- WHAT ITS POINT WRITES BACK is the bias-and-logistic map of the arrays the region found. -/
theorem flushed1 (c : Dev nD) (t : Fin cfg1.N) :
    (dat1 V c).flushed 2 t = ((cfg1.win 2).blk t).view.read (Elt Ideal) (sigOf (V c main_v58) (V c main_v59)) := by
  show (cfg1.win 2).cut (grid1.coords t) ((dat1 V c).after 2 t) = _
  rw [after1_2]
  unfold out1_2
  rw [View.canon_unit_zero zeroOff]
  simp only [View.ld_unit_zero (S := S100x1000) zeroOff, View.ld_unit_zero (S := S1x1) zeroOff]
  rw [dataBlock V c t, biasOneBlock V c t]
  obtain ⟨-, -, -, -, e0, e1⟩ := indexFacts1 t
  funext j
  show k1_pay1 (F := Ideal) (V c main_v58) (V c main_v59) j = sigOf (V c main_v58) (V c main_v59) (((cfg1.win 2).blk t).view.emb j)
  refine (sigmoid_entry (V c main_v58) (V c main_v59) j).trans ?_
  have hj : ((cfg1.win 2).blk t).view.emb j = j := by
    funext a
    apply Fin.ext
    match a with
    | ⟨0, _⟩ => show win1_2.index t (0 : Fin 2) * 100 + 1 * (j 0).val = (j 0).val; rw [e0]; omega
    | ⟨1, _⟩ => show win1_2.index t (1 : Fin 2) * 1000 + 1 * (j 1).val = (j 1).val; rw [e1]; omega
  unfold sigOf
  rw [hj]

theorem mem_block1 (t : Fin cfg1.N) (i : S100x1000.Idx) :
    i ∈ ((cfg1.win 2).blk t).view.set ↔ ∀ a : Fin 2, win1_2.index t a * S100x1000.size a ≤ (i a).val
      ∧ (i a).val < win1_2.index t a * S100x1000.size a + S100x1000.size a := by
  show i ∈ ((View.whole main_v60).slice (win1_2.rect t)).set ↔ _
  rw [View.set_slice_whole, Rect.mem_set_unit]
  exact Iff.rfl

/-- THE RESULT after the second region: its one block covers the array. -/
theorem final1 (c : Dev nD) : (dat1 V c).arrAt 2 cfg1.N = sigOf (V c main_v58) (V c main_v59) :=
  (dat1 V c).arrAt_eq_of_cover 2 _ (fun t _ => flushed1 V c t) fun i => by
    have hi0 : (i 0).val < 100 := (i 0).isLt
    have hi1 : (i 1).val < 1000 := (i 1).isLt
    obtain ⟨e0, e1, e2, e3, e4, e5⟩ := indexFacts1 t1_0
    refine ⟨t1_0, flush1_2 t1_0, ?_⟩
    rw [mem_block1]
    intro a
    match a with
    | ⟨0, _⟩ => show win1_2.index t1_0 (0 : Fin 2) * 100 ≤ (i 0).val ∧ (i 0).val < win1_2.index t1_0 (0 : Fin 2) * 100 + 100; omega
    | ⟨1, _⟩ => show win1_2.index t1_0 (1 : Fin 2) * 1000 ≤ (i 1).val ∧ (i 1).val < win1_2.index t1_0 (1 : Fin 2) * 1000 + 1000; omega

end Cert.KernelIdeal.Regions

end
-- ==== Proof.KernelValue.lean ====
/-
  The kernel's result buffer, read back through @main as a function of the arguments.

  The last boundary's contents at the result buffer are the last reshape of what the second region left; that region found
  the layer-2 aggregate laid out as `[100, 1000]` and the last bias as `[1, 1]`; the aggregate was scatter-added from the fused
  region's column, gathered at the source rows and scaled by the edge weight; the fused region found the layer-1 aggregate of
  the raw features, the two weights and the first bias as a row. Each stretch of host operations and each region is read by
  itself, from the contents at the boundary before it; chained, the result buffer holds `resultK` of the six arguments.
  The edge lists, the degree's inverse square root and the edge weight are named by the reference's stage functions of the
  integer argument: the two programs compute them by the same operations.
-/
import proofs.«159857_j61314953118384_2_alg».proof.Proof.KernelRun
import proofs.«159857_j61314953118384_2_alg».proof.Proof.KernelSpec
import proofs.«159857_j61314953118384_2_alg».proof.Proof.KernelRegions
import Idealize.ShloMosaic.Lib.StableHlo.Run

set_option maxRecDepth 16384

noncomputable section

namespace Cert.KernelIdeal.Result

open Cert.KernelIdeal Cert.KernelIdeal.Gen Idealize.ShloMosaic Idealize.ShloMosaic.TcCoe Idealize.ShloMosaic.ValueIdx
open Idealize.SL Idealize.SL.Sem Idealize.ShloMosaic.StableHlo
open Cert.GcnSpec
open Cert.ReferenceIdeal.ReadP (val_main_v5 val_main_v6 val_main_v12 val_main_v13 val_main_v14 val_main_v15 val_main_v30)

variable (m : (ℓ : Loc nD τ sig) → Buf (Elt Ideal) ℓ) (ρ : Dev nD → PrngReg) (c : Dev nD)

/-! ## The first stretch: edge lists, degree, its sign test and inverse square root -/

theorem first_src : W1 m ρ c (Proc.devRef .tc main_v5) = val_main_v5 (F := Ideal) (m ((c : Thread nD τ).loc main_arg1)) := by
  dsimp only [W1, hostOps0]
  after_results_simp
  rfl
theorem first_dst : W1 m ρ c (Proc.devRef .tc main_v6) = val_main_v6 (F := Ideal) (m ((c : Thread nD τ).loc main_arg1)) := by
  dsimp only [W1, hostOps0]
  after_results_simp
  rfl
theorem first_pos : W1 m ρ c (Proc.devRef .tc main_v12) = val_main_v12 (F := Ideal) (m ((c : Thread nD τ).loc main_arg1)) := by
  dsimp only [W1, hostOps0]
  after_results_simp
  rfl
theorem first_rsqrt : W1 m ρ c (Proc.devRef .tc main_v13) = val_main_v13 (F := Ideal) (m ((c : Thread nD τ).loc main_arg1)) := by
  dsimp only [W1, hostOps0]
  after_results_simp
  rfl
theorem first_zero : W1 m ρ c (Proc.devRef .tc main_v14) = val_main_v14 (F := Ideal) := by
  dsimp only [W1, hostOps0]
  after_results_simp
  rfl

/-! ## The second stretch: the guarded inverse square root -/

theorem second_dinv : W2 m ρ c (Proc.devRef .tc main_v15) = val_main_v15 (F := Ideal) (m ((c : Thread nD τ).loc main_arg1)) := by
  dsimp only [W2]
  generalize hX : W1 m ρ c = X
  dsimp only [hostOps0_1]
  after_results_simp
  subst hX
  rw [first_pos, first_rsqrt, first_zero]
  -- the called function's select is stated through transports along the equation between each buffer's type and its
  -- value's type; a transport along such an equation is the identity (heterogeneous equality)
  unfold val_main_v15
  refine (eq_of_heq (cast_heq _ _)).trans ?_
  exact congr (congr (congrArg select (eq_of_heq (cast_heq _ _))) (eq_of_heq (cast_heq _ _))) (eq_of_heq (cast_heq _ _))
theorem second_src : W2 m ρ c (Proc.devRef .tc main_v5) = val_main_v5 (F := Ideal) (m ((c : Thread nD τ).loc main_arg1)) := by
  dsimp only [W2]
  generalize hX : W1 m ρ c = X
  dsimp only [hostOps0_1]
  after_results_simp
  subst hX
  exact first_src m ρ c
theorem second_dst : W2 m ρ c (Proc.devRef .tc main_v6) = val_main_v6 (F := Ideal) (m ((c : Thread nD τ).loc main_arg1)) := by
  dsimp only [W2]
  generalize hX : W1 m ρ c = X
  dsimp only [hostOps0_1]
  after_results_simp
  subst hX
  exact first_dst m ρ c

/-! ## The third stretch: the edge weight, the layer-1 aggregate of the raw features, the bias row -/

theorem third_weight : W3 m ρ c (Proc.devRef .tc main_v30) = val_main_v30 (F := Ideal) (m ((c : Thread nD τ).loc main_arg1)) := by
  dsimp only [W3]
  generalize hX : W2 m ρ c = X
  dsimp only [hostOps0_2]
  after_results_simp
  subst hX
  rw [second_dinv, second_src, second_dst]
  rfl
theorem third_src : W3 m ρ c (Proc.devRef .tc main_v5) = val_main_v5 (F := Ideal) (m ((c : Thread nD τ).loc main_arg1)) := by
  dsimp only [W3]
  generalize hX : W2 m ρ c = X
  dsimp only [hostOps0_2]
  after_results_simp
  subst hX
  exact second_src m ρ c
theorem third_dst : W3 m ρ c (Proc.devRef .tc main_v6) = val_main_v6 (F := Ideal) (m ((c : Thread nD τ).loc main_arg1)) := by
  dsimp only [W3]
  generalize hX : W2 m ρ c = X
  dsimp only [hostOps0_2]
  after_results_simp
  subst hX
  exact second_dst m ρ c

/-- The features are as launched after the first two stretches. -/
theorem second_x : W2 m ρ c (Proc.devRef .tc main_arg0) = (m ((c : Thread nD τ).loc main_arg0)) := by
  dsimp only [W2, W1, hostOps0, hostOps0_1]
  after_results_simp

/-- The layer-1 aggregate of the raw features, as the fused region finds it. -/
theorem entry_agg : W3 m ρ c (Proc.devRef .tc main_v43) = aggK (m ((c : Thread nD τ).loc main_arg0)) (m ((c : Thread nD τ).loc main_arg1)) := by
  dsimp only [W3]
  generalize hX : W2 m ρ c = X
  dsimp only [hostOps0_2]
  after_results_simp
  subst hX
  rw [second_dinv, second_src, second_dst, second_x]
  rfl

/-- The first bias as a row, as the fused region finds it. -/
theorem entry_bias : W3 m ρ c (Proc.devRef .tc main_v44) = b1Row (m ((c : Thread nD τ).loc main_arg3)) := by
  dsimp only [W3, W2, W1, hostOps0, hostOps0_1, hostOps0_2]
  after_results_simp
  rfl

/-- The two weights are as launched when the fused region is entered. -/
theorem entry_w1 : W3 m ρ c (Proc.devRef .tc main_arg2) = (m ((c : Thread nD τ).loc main_arg2)) := by
  dsimp only [W3, W2, W1, hostOps0, hostOps0_1, hostOps0_2]
  after_results_simp
theorem entry_w2 : W3 m ρ c (Proc.devRef .tc main_arg4) = (m ((c : Thread nD τ).loc main_arg4)) := by
  dsimp only [W3, W2, W1, hostOps0, hostOps0_1, hostOps0_2]
  after_results_simp

/-! ## The fused region -/

/-- The fused region leaves the dense map of the layer-1 aggregate in its result array. -/
theorem exit_lin : W4 m ρ c (Proc.devRef .tc main_v45)
    = mlpOf (aggK (m ((c : Thread nD τ).loc main_arg0)) (m ((c : Thread nD τ).loc main_arg1))) (m ((c : Thread nD τ).loc main_arg2)) (b1Row (m ((c : Thread nD τ).loc main_arg3))) (m ((c : Thread nD τ).loc main_arg4)) := by
  refine (W4_arr m ρ c 4).trans ?_
  refine (Regions.final0 (V3 m ρ) c).trans ?_
  show mlpOf (W3 m ρ c (Proc.devRef .tc main_v43)) (W3 m ρ c (Proc.devRef .tc main_arg2)) (W3 m ρ c (Proc.devRef .tc main_v44))
    (W3 m ρ c (Proc.devRef .tc main_arg4)) = _
  rw [entry_agg, entry_bias, entry_w1, entry_w2]

/-! ## Between the regions -/

/-- The edge lists and the edge weight are untouched by the fused region. -/
theorem kept_src : W4 m ρ c (Proc.devRef .tc main_v5) = val_main_v5 (F := Ideal) (m ((c : Thread nD τ).loc main_arg1)) :=
  (W4_of_ne m ρ c main_v5 (by decide)).trans (third_src m ρ c)
theorem kept_dst : W4 m ρ c (Proc.devRef .tc main_v6) = val_main_v6 (F := Ideal) (m ((c : Thread nD τ).loc main_arg1)) :=
  (W4_of_ne m ρ c main_v6 (by decide)).trans (third_dst m ρ c)
theorem kept_weight : W4 m ρ c (Proc.devRef .tc main_v30) = val_main_v30 (F := Ideal) (m ((c : Thread nD τ).loc main_arg1)) :=
  (W4_of_ne m ρ c main_v30 (by decide)).trans (third_weight m ρ c)
theorem kept_b2 : W4 m ρ c (Proc.devRef .tc main_arg5) = (m ((c : Thread nD τ).loc main_arg5)) := by
  refine (W4_of_ne m ρ c main_arg5 (by decide)).trans ?_
  dsimp only [W3, W2, W1, hostOps0, hostOps0_1, hostOps0_2]
  after_results_simp

/-- The layer-2 aggregate laid out as `[100, 1000]`, as the second region finds it. -/
theorem entry_agg2 : W5 m ρ c (Proc.devRef .tc main_v58)
    = shapeCast S100x1000 (agg2Of (W4 m ρ c (Proc.devRef .tc main_v45)) (m ((c : Thread nD τ).loc main_arg1))) Gen.shapeCasts_S100000x1_S100x1000 := by
  dsimp only [W5]
  generalize hX : W4 m ρ c = X
  dsimp only [hostOps1]
  after_results_simp
  subst hX
  rw [kept_src, kept_dst, kept_weight]
  rfl

/-- The last bias as `[1, 1]`, as the second region finds it. -/
theorem entry_b2 : W5 m ρ c (Proc.devRef .tc main_v59) = shapeCast S1x1 (m ((c : Thread nD τ).loc main_arg5)) Gen.shapeCasts_S1_S1x1 := by
  dsimp only [W5]
  generalize hX : W4 m ρ c = X
  dsimp only [hostOps1]
  after_results_simp
  subst hX
  rw [kept_b2]
  rfl

/-! ## The second region and the last reshape -/

/-- The second region leaves the bias-and-logistic map of what it found. -/
theorem exit_sig : W6 m ρ c (Proc.devRef .tc main_v60)
    = sigOf (W5 m ρ c (Proc.devRef .tc main_v58)) (W5 m ρ c (Proc.devRef .tc main_v59)) :=
  (W6_arr m ρ c 2).trans (Regions.final1 (V5 m ρ) c)

/-- The result buffer at the last boundary is the last reshape of that. -/
theorem last_reshape : W7 m ρ c (Proc.devRef .tc main_v61)
    = shapeCast S100000x1 (W6 m ρ c (Proc.devRef .tc main_v60)) Gen.shapeCasts_S100x1000_S100000x1 := by
  dsimp only [W7, hostOps2]
  after_results
  rfl

/-- THE KERNEL'S VALUE: the result buffer at the last boundary holds `resultK` of the six arguments. -/
theorem kernel_value : W7 m ρ c (Proc.devRef .tc main_v61)
    = resultK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [last_reshape, exit_sig, entry_agg2, entry_b2, exit_lin]
  rfl

end Cert.KernelIdeal.Result

end
-- ==== Proof.FiniteInputs.lean ====
import proofs.«159857_j61314953118384_2_alg».proof.Defs
import Idealize.ShloMosaic.Lib.ReduceAll
import Idealize.ShloMosaic.Lib.ValueIdx

/-!
# From the finiteness precondition to real inputs

The certificate's precondition says that `all(|a| < +∞)` holds for each of the five floating-point
argument arrays (node features `x`, first-layer weights `W1`, and `b1`, `W2`, `b2`), the five
answers joined by `and`.  At the ideal instance a float is an extended real and `|a| = max a (-a)`,
so `|a| < +∞` excludes both infinities (`max ⊤ (-⊤) = ⊤`, `max ⊥ (-⊥) = ⊤`) and leaves exactly
the coercions of real numbers.

This file unfolds the printed predicate, splits the conjunction, reads each `all` back as a
statement about every element, and concludes that every entry of `x` and of `W1` is a real.
-/

noncomputable section

namespace Cert.FiniteInputs

open Idealize.ShloMosaic Idealize.SL.Sem

/-- The scalar shape has exactly one index. -/
instance : Subsingleton Cert.Pre_finite_inputs.S_.Idx := ⟨fun _ _ => funext fun d => d.elim0⟩

/-- The single-precision pattern `0x7F800000` (sign 0, exponent all ones, fraction 0) denotes `+∞`. -/
theorem ofBits_inf : Ideal.ofBits .f32 0x7F800000#32 = (⊤ : EReal) := by
  simp [Ideal.ofBits, Ideal.ieee]

/-- An extended real whose absolute value `max a (-a)` is strictly below `+∞` is a real:
    at `⊤` and at `⊥` the absolute value is `⊤`. -/
theorem real_of_abs_lt_top (a : EReal) (h : max a (-a) < ⊤) : ∃ r : ℝ, a = ((r : ℝ) : EReal) := by
  induction a using EReal.rec with
  | bot => simp at h
  | coe r => exact ⟨r, rfl⟩
  | top => simp at h

/-- The element test of the precondition, `|a| < +∞` as a comparison bit equal to one, makes `a` real. -/
theorem real_of_cmp_abs_inf (a : EReal)
    (h : Ideal.cmp .olt (max a (-a)) (Ideal.ofBits .f32 0x7F800000#32) = 1#1) :
    ∃ r : ℝ, a = ((r : ℝ) : EReal) := by
  apply real_of_abs_lt_top
  rw [ofBits_inf] at h
  by_contra hlt
  simp [Ideal.cmp, hlt] at h

/-- Every entry of the node-feature array `x` (the first argument) is a real. -/
theorem x_real [Cert.Pre_finite_inputs.Facts]
    {m : (ℓ : Loc Cert.KernelIdeal.nD Cert.KernelIdeal.τ Cert.KernelIdeal.sig) → Buf (Elt Ideal) ℓ}
    (hpre : Cert.Pre_KernelIdeal m) (c : Dev Cert.KernelIdeal.nD) (i : Cert.KernelIdeal.S100000x5.Idx) :
    ∃ r : ℝ, m ((c.tc : Thread Cert.KernelIdeal.nD Cert.KernelIdeal.τ).loc Cert.KernelIdeal.main_arg0) i
      = ((r : ℝ) : EReal) := by
  have h := congrFun (hpre c) ValueIdx.ix0
  dsimp only [Cert.Pre_finite_inputs.fn, Cert.Pre_finite_inputs.fn_part1] at h
  obtain ⟨h18, -⟩ := IntOp.andi_eq_one.1 h
  obtain ⟨h13, -⟩ := IntOp.andi_eq_one.1 h18
  obtain ⟨h8, -⟩ := IntOp.andi_eq_one.1 h13
  obtain ⟨h3, -⟩ := IntOp.andi_eq_one.1 h8
  have hx := Host.reduce_andi_all _ _ _ _ _ h3 i
  exact real_of_cmp_abs_inf _ hx

/-- Every entry of the first-layer weight matrix `W1` (the third argument) is a real. -/
theorem W1_real [Cert.Pre_finite_inputs.Facts]
    {m : (ℓ : Loc Cert.KernelIdeal.nD Cert.KernelIdeal.τ Cert.KernelIdeal.sig) → Buf (Elt Ideal) ℓ}
    (hpre : Cert.Pre_KernelIdeal m) (c : Dev Cert.KernelIdeal.nD) (i : Cert.KernelIdeal.S5x32.Idx) :
    ∃ r : ℝ, m ((c.tc : Thread Cert.KernelIdeal.nD Cert.KernelIdeal.τ).loc Cert.KernelIdeal.main_arg2) i
      = ((r : ℝ) : EReal) := by
  have h := congrFun (hpre c) ValueIdx.ix0
  dsimp only [Cert.Pre_finite_inputs.fn, Cert.Pre_finite_inputs.fn_part1] at h
  obtain ⟨h18, -⟩ := IntOp.andi_eq_one.1 h
  obtain ⟨h13, -⟩ := IntOp.andi_eq_one.1 h18
  obtain ⟨h8, -⟩ := IntOp.andi_eq_one.1 h13
  obtain ⟨-, h7⟩ := IntOp.andi_eq_one.1 h8
  have hw := Host.reduce_andi_all _ _ _ _ _ h7 i
  exact real_of_cmp_abs_inf _ hw

end Cert.FiniteInputs

end
-- ==== Proof.LibRowIndex.lean ====
/-
  THE HOST'S ROW GATHER AND ROW SCATTER-ADD READ AT ONE INDEX, for an index array of shape `[E, 1]`.

  `x[idx]` of an array `x : [N, C]` (or `[N]`) at an integer vector `idx : [E]` lowers to `stablehlo.gather` over the
  indices reshaped to `[E, 1]`, the index vector on the LAST axis (index_vector_dim 1) with one component naming
  operand axis 0; `segment_sum` of updates `[E, C]` (or `[E]`) into `N` segments lowers to `stablehlo.scatter` with an
  `add` body over the same index layout. This file reads both at one index:

  * `gather_rowTake_apply` / `gather_vecTake_apply`: result row `e` is the operand's row at the start index `idx[e, 0]`,
    read as a signed integer and clamped into `[0, N − 1]` (StableHLO clamps every gather start index so that the
    slice fits);
  * `rowScatter_resultIdx?_eq_some_iff` / `vecScatter_resultIdx?_eq_some_iff`: update `(e, k')` lands at operand element
    `(n, k)` exactly when `idx[e, 0]`, read signed and NOT clamped, is `n`, and `k' = k` (an index outside `[0, N)`
    lands nowhere: the update is dropped);
  * `hostScatterAdd_rowScatter_apply` / `hostScatterAdd_vecScatter_apply`: at the ideal values, operand element `(n, k)`
    after the scatter-add is its old value plus the sum of `upd (e, k)` over the rows `e` whose index is `n`.

  The extents `N E C` and the index width `w` are arbitrary naturals; no proof enumerates an index set.
-/
import Idealize.ShloMosaic.Lib.ValueIdx

noncomputable section

open scoped BigOperators

namespace Idealize.ShloMosaic.RowIndex

open Idealize.ShloMosaic Idealize.ShloMosaic.ValueIdx

/-! ## `stablehlo.gather` of rows at start indices `[E, 1]`, read at an index

Result element `(e, k)` of the gather of `x : [N, C]` is `x` at row `idx[e, 0]` — read as a signed integer and clamped
into `[0, N − 1]` — and column `k`: on operand axis 0 (collapsed, named by the start index map) the operand index is the
clamped start alone, on axis 1 (the one offset axis, slice size `C`) it is the result's offset coordinate alone. -/

section Take
variable {α : Type}

/-- The row gather's dimension numbers for an operand `[N, C]`, start indices `[E, 1]` and result `[E, C]`; their
    conditions `wf` are decided on a program's literal shapes. -/
abbrev rowTakeDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, k)`: the operand at row `idx[e, 0]`, read signed and clamped into `[0, N − 1]`, and
    column `k`. -/
theorem gather_rowTake_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowTakeDims N E C wf) x idx (ix2 e k)
      = x (ix2 ⟨min (idx (ix2 e (0 : Fin 1))).toInt.toNat (N - 1), by omega⟩ k) := by
  unfold Host.gather
  congr 1
  funext a
  refine Fin.ext ?_
  match a with
  | ⟨0, _⟩ =>
    show (rowTakeDims N E C wf).start (ix2 e k) idx 0 + (rowTakeDims N E C wf).batchCoord (ix2 e k) 0
      + (rowTakeDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowTakeDims N E C wf).startIndexMap from List.mem_singleton.mpr rfl)]
    have hsi : (rowTakeDims N E C wf).siIdx (ix2 e k) ⟨List.idxOf (0 : Fin 2) (rowTakeDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowTakeDims N E C wf).start (ix2 e k) idx 1 + (rowTakeDims N E C wf).batchCoord (ix2 e k) 1
      + (rowTakeDims N E C wf).offCoord (ix2 e k) 1 = _
    rw [GatherDims.batchCoord_eq_zero _ _ _ List.not_mem_nil]
    unfold GatherDims.start
    rw [dif_neg (show (1 : Fin 2) ∉ ([0] : List (Fin 2)) by decide)]
    simp only [Nat.add_zero, Nat.zero_add]
    rfl

/-- The same gather of a flat operand `[N]`: start indices `[E, 1]`, result `[E]`, no offset axis. -/
abbrev vecTakeDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE FLAT GATHER READ AT `e`: the operand at the start index `idx[e, 0]`, read signed and clamped into
    `[0, N − 1]`. -/
theorem gather_vecTake_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecTakeDims N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (vecTakeDims N E wf).start (ix1 e) idx 0 + (vecTakeDims N E wf).batchCoord (ix1 e) 0
    + (vecTakeDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecTakeDims N E wf).startIndexMap from List.mem_singleton.mpr rfl)]
  have hsi : (vecTakeDims N E wf).siIdx (ix1 e) ⟨List.idxOf (0 : Fin 1) (vecTakeDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Take

/-! ## `stablehlo.scatter` with an `add` body at scatter indices `[E, 1]`, read at an index

Update element `(e, k')` of updates `[E, C]` goes to the operand index `start + window` on each axis: on operand axis 0
(inserted, named by the scatter-dims-to-operand-dims map) the start is `idx[e, 0]` read as a signed integer, NOT clamped,
and the window coordinate is `0`; on axis 1 (the one window axis) the start is `0` and the window coordinate is `k'`. The
update lands when that index is inside the operand on every axis and is dropped otherwise. So the updates landing at
`(n, k)` are the `(e, k)` with `idx[e, 0] = n`, and the scatter-add there is the old value plus their sum. -/

section Scatter

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The row scatter's dimension numbers for an operand `[N, C]`, scatter indices `[E, 1]` and updates `[E, C]`; their
    conditions `wf` are decided on a program's literal shapes. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On operand axis 0 the window of update `(e, k')` starts at `idx[e, 0]`, read signed. -/
theorem rowScatter_start_zero {N E C w : Nat}
    (wf : ScatterDims.WF ⟨2, ![N, C]⟩ ⟨2, ![E, 1]⟩ ⟨2, ![E, C]⟩ [1] [0] [0] 1)
    (idx : IVec ⟨2, ![E, 1]⟩ w) (e : Fin E) (k' : Fin C) :
    (rowScatterDims N E C wf).start (ix2 e k') idx 0 = (idx (ix2 e (0 : Fin 1))).toInt := by
  unfold ScatterDims.start
  rw [dif_pos (show (0 : Fin 2) ∈ (rowScatterDims N E C wf).scatterDimsToOperandDims from List.mem_singleton.mpr rfl)]
  have hsi : (rowScatterDims N E C wf).siIdx (ix2 e k') ⟨List.idxOf (0 : Fin 2) (rowScatterDims N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On operand axis 1, which the map does not name, the window starts at `0`. -/
theorem rowScatter_start_one {N E C w : Nat}
    (wf : ScatterDims.WF ⟨2, ![N, C]⟩ ⟨2, ![E, 1]⟩ ⟨2, ![E, C]⟩ [1] [0] [0] 1)
    (idx : IVec ⟨2, ![E, 1]⟩ w) (e : Fin E) (k' : Fin C) :
    (rowScatterDims N E C wf).start (ix2 e k') idx 1 = 0 := by
  unfold ScatterDims.start
  rw [dif_neg (show (1 : Fin 2) ∉ ([0] : List (Fin 2)) by decide)]

/-- On operand axis 0, an inserted axis, the window coordinate is `0`. -/
theorem rowScatter_window_zero {N E C : Nat}
    (wf : ScatterDims.WF ⟨2, ![N, C]⟩ ⟨2, ![E, 1]⟩ ⟨2, ![E, C]⟩ [1] [0] [0] 1)
    (e : Fin E) (k' : Fin C) :
    (rowScatterDims N E C wf).window (ix2 e k') 0 = 0 := rfl

/-- On operand axis 1 the window coordinate of update `(e, k')` is `k'`. -/
theorem rowScatter_window_one {N E C : Nat}
    (wf : ScatterDims.WF ⟨2, ![N, C]⟩ ⟨2, ![E, 1]⟩ ⟨2, ![E, C]⟩ [1] [0] [0] 1)
    (e : Fin E) (k' : Fin C) :
    (rowScatterDims N E C wf).window (ix2 e k') 1 = k'.val := rfl

/-- WHERE A ROW UPDATE LANDS: update `(e, k')` lands at operand element `(n, k)` exactly when `idx[e, 0]`, read signed,
    is `n`, and `k' = k`. (When the index is negative or at least `N` the update lands nowhere.) -/
theorem rowScatter_resultIdx?_eq_some_iff {N E C w : Nat}
    (wf : ScatterDims.WF ⟨2, ![N, C]⟩ ⟨2, ![E, 1]⟩ ⟨2, ![E, C]⟩ [1] [0] [0] 1)
    (idx : IVec ⟨2, ![E, 1]⟩ w) (e : Fin E) (k' : Fin C) (n : Fin N) (k : Fin C) :
    (rowScatterDims N E C wf).resultIdx? (ix2 e k') idx = some (ix2 n k)
      ↔ (idx (ix2 e (0 : Fin 1))).toInt = (n.val : Int) ∧ k' = k := by
  have h0 := rowScatter_start_zero wf idx e k'
  have h1 := rowScatter_start_one wf idx e k'
  have w0 := rowScatter_window_zero wf e k'
  have w1 := rowScatter_window_one wf e k'
  have hn := n.isLt
  have hk := k.isLt
  have hk' := k'.isLt
  unfold ScatterDims.resultIdx?
  split
  · rename_i h
    rw [Option.some.injEq]
    constructor
    · intro hf
      have e0 := congrArg (fun f => (f 0).val) hf
      have e1 := congrArg (fun f => (f 1).val) hf
      simp only [h0, h1, w0, w1] at e0 e1
      have := (h 0).1
      rw [h0, w0] at this
      refine ⟨?_, Fin.ext ?_⟩
      · change _ = n.val at e0
        omega
      · change _ = k.val at e1
        omega
    · rintro ⟨hv, rfl⟩
      funext a; refine Fin.ext ?_
      match a with
      | ⟨0, _⟩ =>
        show ((rowScatterDims N E C wf).start (ix2 e k') idx 0 + (rowScatterDims N E C wf).window (ix2 e k') 0).toNat = n.val
        rw [h0, w0, hv]; omega
      | ⟨1, _⟩ =>
        show ((rowScatterDims N E C wf).start (ix2 e k') idx 1 + (rowScatterDims N E C wf).window (ix2 e k') 1).toNat = k'.val
        rw [h1, w1]; omega
  · rename_i h
    constructor
    · intro hf; exact absurd hf (by simp)
    · rintro ⟨hv, rfl⟩
      exfalso; apply h
      intro a
      match a with
      | ⟨0, _⟩ =>
        show 0 ≤ (rowScatterDims N E C wf).start (ix2 e k') idx 0 + (rowScatterDims N E C wf).window (ix2 e k') 0 ∧
          (rowScatterDims N E C wf).start (ix2 e k') idx 0 + (rowScatterDims N E C wf).window (ix2 e k') 0 < (N : Int)
        rw [h0, w0, hv]; omega
      | ⟨1, _⟩ =>
        show 0 ≤ (rowScatterDims N E C wf).start (ix2 e k') idx 1 + (rowScatterDims N E C wf).window (ix2 e k') 1 ∧
          (rowScatterDims N E C wf).start (ix2 e k') idx 1 + (rowScatterDims N E C wf).window (ix2 e k') 1 < (C : Int)
        rw [h1, w1]; omega

/-- THE ROW SCATTER-ADD READ AT `(n, k)`, at the ideal values: the operand's element plus the sum of `upd (e, k)` over
    the rows `e` whose index `idx[e, 0]`, read signed, is `n`. The sum over the updates' rank-2 index set that land at
    `(n, k)` becomes the double sum over `(e, k')` of an `if`, whose inner sum keeps the one term `k' = k`. -/
theorem hostScatterAdd_rowScatter_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (k : Fin C) :
    Ideal.hostScatterAdd (rowScatterDims N E C wf) x idx upd (ix2 n k)
      = x (ix2 n k) + ∑ e ∈ Finset.univ.filter (fun e : Fin E => (idx (ix2 e (0 : Fin 1))).toInt = (n.val : Int)),
          upd (ix2 e k) := by
  unfold Ideal.hostScatterAdd
  congr 1
  rw [Finset.sum_filter, sum_idx2, Finset.sum_filter]
  refine Finset.sum_congr rfl fun e _ => ?_
  simp only [rowScatter_resultIdx?_eq_some_iff]
  by_cases hv : (idx (ix2 e (0 : Fin 1))).toInt = (n.val : Int)
  · simp only [hv, true_and, if_true]
    rw [Finset.sum_ite_eq' Finset.univ k (fun k' => upd (ix2 e k'))]
    simp
  · simp [hv]
/-- The same scatter into a flat operand `[N]`: scatter indices `[E, 1]`, updates `[E]`, no window axis. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- On the operand's one axis the window of update `e` starts at `idx[e, 0]`, read signed. -/
theorem vecScatter_start_zero {N E w : Nat}
    (wf : ScatterDims.WF ⟨1, ![N]⟩ ⟨2, ![E, 1]⟩ ⟨1, ![E]⟩ [] [0] [0] 1)
    (idx : IVec ⟨2, ![E, 1]⟩ w) (e : Fin E) :
    (vecScatterDims N E wf).start (ix1 e) idx 0 = (idx (ix2 e (0 : Fin 1))).toInt := by
  unfold ScatterDims.start
  rw [dif_pos (show (0 : Fin 1) ∈ (vecScatterDims N E wf).scatterDimsToOperandDims from List.mem_singleton.mpr rfl)]
  have hsi : (vecScatterDims N E wf).siIdx (ix1 e) ⟨List.idxOf (0 : Fin 1) (vecScatterDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the operand's one axis, an inserted axis, the window coordinate is `0`. -/
theorem vecScatter_window_zero {N E : Nat}
    (wf : ScatterDims.WF ⟨1, ![N]⟩ ⟨2, ![E, 1]⟩ ⟨1, ![E]⟩ [] [0] [0] 1) (e : Fin E) :
    (vecScatterDims N E wf).window (ix1 e) 0 = 0 := rfl

/-- WHERE A FLAT UPDATE LANDS: update `e` lands at operand element `n` exactly when `idx[e, 0]`, read signed, is `n`. -/
theorem vecScatter_resultIdx?_eq_some_iff {N E w : Nat}
    (wf : ScatterDims.WF ⟨1, ![N]⟩ ⟨2, ![E, 1]⟩ ⟨1, ![E]⟩ [] [0] [0] 1)
    (idx : IVec ⟨2, ![E, 1]⟩ w) (e : Fin E) (n : Fin N) :
    (vecScatterDims N E wf).resultIdx? (ix1 e) idx = some (ix1 n)
      ↔ (idx (ix2 e (0 : Fin 1))).toInt = (n.val : Int) := by
  have h0 := vecScatter_start_zero wf idx e
  have w0 := vecScatter_window_zero wf e
  have hn := n.isLt
  unfold ScatterDims.resultIdx?
  split
  · rename_i h
    rw [Option.some.injEq]
    constructor
    · intro hf
      have e0 := congrArg (fun f => (f 0).val) hf
      simp only [h0, w0] at e0
      have := (h 0).1
      rw [h0, w0] at this
      change _ = n.val at e0
      omega
    · intro hv
      funext a
      obtain rfl : a = 0 := Subsingleton.elim _ _
      refine Fin.ext ?_
      show ((vecScatterDims N E wf).start (ix1 e) idx 0 + (vecScatterDims N E wf).window (ix1 e) 0).toNat = n.val
      rw [h0, w0, hv]; omega
  · rename_i h
    constructor
    · intro hf; exact absurd hf (by simp)
    · intro hv
      exfalso; apply h
      intro a
      obtain rfl : a = 0 := Subsingleton.elim _ _
      show 0 ≤ (vecScatterDims N E wf).start (ix1 e) idx 0 + (vecScatterDims N E wf).window (ix1 e) 0 ∧
        (vecScatterDims N E wf).start (ix1 e) idx 0 + (vecScatterDims N E wf).window (ix1 e) 0 < (N : Int)
      rw [h0, w0, hv]; omega

/-- THE FLAT SCATTER-ADD READ AT `n`, at the ideal values: the operand's element plus the sum of `upd e` over the
    `e` whose index `idx[e, 0]`, read signed, is `n` — the same set of rows as in `hostScatterAdd_rowScatter_apply`. -/
theorem hostScatterAdd_vecScatter_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (n : Fin N) :
    Ideal.hostScatterAdd (vecScatterDims N E wf) x idx upd (ix1 n)
      = x (ix1 n) + ∑ e ∈ Finset.univ.filter (fun e : Fin E => (idx (ix2 e (0 : Fin 1))).toInt = (n.val : Int)),
          upd (ix1 e) := by
  unfold Ideal.hostScatterAdd
  congr 1
  rw [Finset.sum_filter, sum_idx1, Finset.sum_filter]
  refine Finset.sum_congr rfl fun e _ => ?_
  simp only [vecScatter_resultIdx?_eq_some_iff]

end Scatter

end Idealize.ShloMosaic.RowIndex

end
-- ==== Proof.LibGcnAlgebra.lean ====
import Idealize.ShloMosaic.PureOps.Ideal

/-!
# Extended-real algebra for a two-layer graph convolution

A graph-convolution layer sends node features `x` (one row per node), a weight matrix `W` and
per-edge weights `nrm e` to, for a node and an output channel `k`, the sum over the incoming
edges `e` of `(x_src(e) · W[:,k]) * nrm e`.  The same layer may be evaluated in the other order:
first aggregate `∑ₑ x_src(e)[c] * nrm e` per input channel `c`, then contract with `W[:,k]`.

Over the extended reals multiplication does not distribute over addition at the infinities, so
the two orders are compared for values that are coercions of real numbers, where every
expression in sight is the coercion of the corresponding real expression and the identity is
the real one (`Finset.sum_comm` plus commutativity of multiplication).

The file also records that the ingredients of the edge weight are real: an in-degree (a sum of
ones) is the coercion of a natural number, and its guarded inverse square root
`deg > 0 ? rsqrt deg : 0` is real, as is a product of two reals.
-/

open Idealize.ShloMosaic
open scoped BigOperators

namespace GcnAlgebra

/-- The coercion `ℝ → EReal` commutes with finite sums (it is additive on reals, and a finite
    sum of reals never meets an infinity). -/
theorem coe_finset_sum {ι : Type*} (S : Finset ι) (f : ι → ℝ) :
    ∑ e ∈ S, ((f e : ℝ) : EReal) = ((∑ e ∈ S, f e : ℝ) : EReal) := by
  classical
  induction S using Finset.induction_on with
  | empty => simp
  | insert a s ha ih =>
    rw [Finset.sum_insert ha, Finset.sum_insert ha, ih, EReal.coe_add]

/-- **Aggregate-then-transform equals transform-then-aggregate**, for real data.  With
    `xr e c` the feature of the source of edge `e` in channel `c`, `wr c` one column of the
    weight matrix and `nr e` the edge weight:
    `∑_c (0 + ∑_e x e c * n e) * w c = 0 + ∑_e (∑_c x e c * w c) * n e` in `EReal`.
    Both sides are the coercion of the real double sum `∑_c ∑_e x e c * n e * w c`. -/
theorem agg_transform_comm {ι γ : Type*} [Fintype γ] (S : Finset ι)
    (xr : ι → γ → ℝ) (wr : γ → ℝ) (nr : ι → ℝ) :
    ∑ c, ((0 : EReal) + ∑ e ∈ S, ((xr e c : ℝ) : EReal) * ((nr e : ℝ) : EReal))
        * ((wr c : ℝ) : EReal)
      = (0 : EReal) + ∑ e ∈ S, (∑ c, ((xr e c : ℝ) : EReal) * ((wr c : ℝ) : EReal))
        * ((nr e : ℝ) : EReal) := by
  have hL : ∀ c, (∑ e ∈ S, ((xr e c : ℝ) : EReal) * ((nr e : ℝ) : EReal)) * ((wr c : ℝ) : EReal)
      = (((∑ e ∈ S, xr e c * nr e) * wr c : ℝ) : EReal) := by
    intro c
    simp only [← EReal.coe_mul]
    rw [coe_finset_sum, ← EReal.coe_mul]
  have hR : ∀ e, (∑ c, ((xr e c : ℝ) : EReal) * ((wr c : ℝ) : EReal)) * ((nr e : ℝ) : EReal)
      = (((∑ c, xr e c * wr c) * nr e : ℝ) : EReal) := by
    intro e
    simp only [← EReal.coe_mul]
    rw [coe_finset_sum, ← EReal.coe_mul]
  simp only [zero_add, hL, hR]
  rw [coe_finset_sum, coe_finset_sum]
  congr 1
  simp only [Finset.sum_mul]
  rw [Finset.sum_comm]
  exact Finset.sum_congr rfl fun e _ => Finset.sum_congr rfl fun c _ => by ring

/-- The same identity for extended-real data known to be real: each of `x e c`, `w c`, `n e` is
    the coercion of some real number. -/
theorem agg_transform_comm' {ι γ : Type*} [Fintype γ] (S : Finset ι)
    (x : ι → γ → EReal) (w : γ → EReal) (n : ι → EReal)
    (hx : ∀ e c, ∃ r : ℝ, x e c = r) (hw : ∀ c, ∃ r : ℝ, w c = r)
    (hn : ∀ e, ∃ r : ℝ, n e = r) :
    ∑ c, ((0 : EReal) + ∑ e ∈ S, x e c * n e) * w c
      = (0 : EReal) + ∑ e ∈ S, (∑ c, x e c * w c) * n e := by
  choose xr hxr using hx
  choose wr hwr using hw
  choose nr hnr using hn
  simp only [hxr, hwr, hnr]
  exact agg_transform_comm S xr wr nr

/-- A count is real: a sum of ones over a finite set, started from zero, is the coercion of the
    cardinality. -/
theorem zero_add_sum_one {ι : Type*} (S : Finset ι) :
    (0 : EReal) + ∑ _e ∈ S, (1 : EReal) = ((S.card : ℝ) : EReal) := by
  have h1 : ∑ _e ∈ S, (1 : EReal) = ∑ _e ∈ S, (((1 : ℝ) : ℝ) : EReal) :=
    Finset.sum_congr rfl fun _ _ => EReal.coe_one.symm
  rw [zero_add, h1, coe_finset_sum, Finset.sum_const, nsmul_eq_mul, mul_one]

/-- The comparison `r > 0` of a real with zero, as a bit. -/
theorem cmp_ogt_coe_zero (r : ℝ) :
    Ideal.cmp .ogt ((r : ℝ) : EReal) (0 : EReal) = (1 : BitVec 1) ↔ 0 < r := by
  by_cases h : 0 < r <;> simp [Ideal.cmp, h]

/-- The inverse square root of a positive real is the real `(√r)⁻¹`. -/
theorem rsqrt_coe_of_pos {r : ℝ} (h : 0 < r) :
    Ideal.rsqrt ((r : ℝ) : EReal) = (((Real.sqrt r)⁻¹ : ℝ) : EReal) := by
  rw [Ideal.rsqrt_coe, if_neg (not_lt.mpr h.le), if_neg h.ne']

/-- The guarded inverse square root `r > 0 ? rsqrt r : 0` of a real is real: `(√r)⁻¹` for
    positive `r`, and `0` otherwise (the guard keeps `rsqrt` away from its two infinite
    values). -/
theorem select_ogt_rsqrt_real (r : ℝ) :
    ∃ q : ℝ, Scalar.select (Ideal.cmp .ogt ((r : ℝ) : EReal) (0 : EReal))
      (Ideal.rsqrt ((r : ℝ) : EReal)) (0 : EReal) = ((q : ℝ) : EReal) := by
  by_cases h : 0 < r
  · refine ⟨(Real.sqrt r)⁻¹, ?_⟩
    rw [(cmp_ogt_coe_zero r).mpr h, rsqrt_coe_of_pos h]
    rfl
  · refine ⟨0, ?_⟩
    have hb : Ideal.cmp .ogt ((r : ℝ) : EReal) (0 : EReal) ≠ (1 : BitVec 1) :=
      fun hc => h ((cmp_ogt_coe_zero r).mp hc)
    rw [Scalar.select, if_neg hb, EReal.coe_zero]

/-- The guarded inverse square root of an in-degree (a count of incoming edges) is real. -/
theorem select_ogt_rsqrt_count_real {ι : Type*} (S : Finset ι) :
    ∃ q : ℝ, Scalar.select (Ideal.cmp .ogt ((0 : EReal) + ∑ _e ∈ S, (1 : EReal)) (0 : EReal))
      (Ideal.rsqrt ((0 : EReal) + ∑ _e ∈ S, (1 : EReal))) (0 : EReal) = ((q : ℝ) : EReal) := by
  rw [zero_add_sum_one]
  exact select_ogt_rsqrt_real _

/-- A product of two reals is real. -/
theorem coe_mul_real (a b : ℝ) :
    ∃ q : ℝ, ((a : ℝ) : EReal) * ((b : ℝ) : EReal) = ((q : ℝ) : EReal) :=
  ⟨a * b, (EReal.coe_mul a b).symm⟩

/-- A product of two extended reals that are real is real. -/
theorem mul_real {x y : EReal} (hx : ∃ r : ℝ, x = r) (hy : ∃ r : ℝ, y = r) :
    ∃ q : ℝ, x * y = ((q : ℝ) : EReal) := by
  obtain ⟨a, rfl⟩ := hx
  obtain ⟨b, rfl⟩ := hy
  exact coe_mul_real a b

end GcnAlgebra
-- ==== Proof.RefReadings.lean ====
import proofs.«159857_j61314953118384_2_alg».proof.Proof.RefReadPatched

/-!
# The reference's last stages, read at an index

The reference graph convolution ends, per node `n`, in

* a first layer `h[n, k] = max (agg₁[n, k] + b1[k]) 0` (bias, then the rectifier), where `agg₁` is the
  first layer's edge aggregate;
* the second layer's feature transform `t[p] = ∑ₖ h[p, k] * W2[k, 0]` (a matrix product with one
  output column);
* and the output `1 / (1 + exp (-(agg₂[n] + b2[0])))`, the logistic function of the second layer's edge
  aggregate `agg₂` plus its bias.

This file reads those stages of the reference at one entry, in terms of the two aggregates (which
are left closed here), the biases and `W2`.  The constants of the graph are the single-precision
patterns of `1` and `0`, whose values as extended reals are computed first.
-/

noncomputable section

namespace Cert.RefReadings

open Idealize.ShloMosaic Idealize.ShloMosaic.ValueIdx Cert.ReferenceIdeal Cert.ReferenceIdeal.ReadP
open scoped BigOperators

/-- The single-precision pattern `0x3F800000` (sign 0, biased exponent 127, fraction 0) denotes `1`. -/
theorem ofBits_one : Ideal.ofBits .f32 0x3F800000#32 = (1 : EReal) := by
  simp [Ideal.ofBits, Ideal.ieee, -EReal.coe_mul]; norm_num

/-- The all-zero single-precision pattern denotes `0`. -/
theorem ofBits_zero : Ideal.ofBits .f32 0x00000000#32 = (0 : EReal) := Ideal.ofBits_zero_f32

/-- The output at node `n` is the logistic function `1 / (1 + exp (-z))` of
    `z = agg₂[n, 0] + b2[0]`: the second layer's edge aggregate plus its bias. -/
theorem result_eq_logistic (x0 : (⟨S100000x5, .f32⟩ : BufTy).Contents (Elt Ideal)) (x1 : (⟨S2x2500000, .i32⟩ : BufTy).Contents (Elt Ideal))
    (x2 : (⟨S5x32, .f32⟩ : BufTy).Contents (Elt Ideal)) (x3 : (⟨S32, .f32⟩ : BufTy).Contents (Elt Ideal))
    (x4 : (⟨S32x1, .f32⟩ : BufTy).Contents (Elt Ideal))
    (x5 : (⟨S1, .f32⟩ : BufTy).Contents (Elt Ideal)) (n : Fin 100000) :
    val_main_v97 (F := Ideal) x0 x1 x2 x3 x4 x5 (ix2 n (0 : Fin 1))
      = Ideal.logistic (val_main_v88 (F := Ideal) x0 x1 x2 x3 x4 (ix2 n (0 : Fin 1)) + x5 (ix1 (0 : Fin 1))) := by
  have hidx : idx_main_v89 (idx_main_v90 (ix2 n (0 : Fin 1))) = ix1 (0 : Fin 1) :=
    funext fun a => by match a with | ⟨0, _⟩ => rfl
  rw [val_main_v97_apply, val_main_v96_apply, val_main_cst_21_apply, val_main_v95_apply, val_main_v94_apply,
    val_main_cst_20_apply, val_main_v93_apply, val_main_v92_apply, val_main_v91_apply, val_main_v90_apply,
    val_main_v89_apply, hidx]
  simp only [Ideal.ofBits_def, ofBits_one, Ideal.hostDivf_def, Ideal.addf_def, Ideal.hostUnary_exp_def,
    Ideal.hostNegf_def, Ideal.negf_def, Ideal.logistic]

/-- The second layer's transformed feature at node `p`: `∑ₖ max (agg₁[p, k] + b1[k]) 0 * W2[k, 0]`,
    the rectified, biased first-layer aggregate contracted with the one column of `W2`. -/
theorem layer2_input (x0 : (⟨S100000x5, .f32⟩ : BufTy).Contents (Elt Ideal)) (x1 : (⟨S2x2500000, .i32⟩ : BufTy).Contents (Elt Ideal))
    (x2 : (⟨S5x32, .f32⟩ : BufTy).Contents (Elt Ideal)) (x3 : (⟨S32, .f32⟩ : BufTy).Contents (Elt Ideal))
    (x4 : (⟨S32x1, .f32⟩ : BufTy).Contents (Elt Ideal)) (p : Fin 100000) :
    val_main_v76 (F := Ideal) x0 x1 x2 x3 x4 (ix2 p (0 : Fin 1))
      = ∑ k : Fin 32, max (val_main_v44 (F := Ideal) x0 x1 x2 (ix2 p k) + x3 (ix1 k)) 0 * x4 (ix2 k (0 : Fin 1)) := by
  rw [val_main_v76_apply]
  refine Finset.sum_congr rfl fun k _ => ?_
  have hl : lidx_main_v76 (ix2 p (0 : Fin 1)) k = ix2 p k :=
    funext fun a => by match a with | ⟨0, _⟩ => rfl | ⟨1, _⟩ => rfl
  have hr : ridx_main_v76 (ix2 p (0 : Fin 1)) k = ix2 k (0 : Fin 1) :=
    funext fun a => by match a with | ⟨0, _⟩ => rfl | ⟨1, _⟩ => rfl
  have hb : idx_main_v45 (idx_main_v46 (ix2 p k)) = ix1 k :=
    funext fun a => by match a with | ⟨0, _⟩ => rfl
  rw [hl, hr, val_main_v48_apply, val_main_v47_apply, val_main_v46_apply, val_main_v45_apply, hb,
    val_main_call1_v0_apply, val_main_call1_cst_apply]
  simp only [Ideal.ofBits_def, ofBits_zero]
  rfl

end Cert.RefReadings

end
-- ==== Proof.RefWeight.lean ====
/-
  The edge weight is a real number.

  The reference's edge weight at edge `e` is `dinv (src e) * dinv (dst e)`, the two rows clamped into range, where
  `dinv i = if deg i > 0 then (deg i)^(-1/2) else 0` and `deg i = 0 + ∑_{e : dst e = i} 1` is a scatter-add of ones into zeros.
  A count is a real, the guarded inverse square root of a real is a real, and a product of reals is a real; so the weight
  never is an infinity, which is what lets sums be exchanged against it.
-/
import proofs.«159857_j61314953118384_2_alg».proof.Proof.RefReadPatched
import proofs.«159857_j61314953118384_2_alg».proof.Proof.RefReadings
import proofs.«159857_j61314953118384_2_alg».proof.Proof.LibRowIndex
import proofs.«159857_j61314953118384_2_alg».proof.Proof.LibGcnAlgebra

noncomputable section

namespace Cert.RefWeight

open Idealize.ShloMosaic Idealize.ShloMosaic.ValueIdx Idealize.ShloMosaic.RowIndex
open Cert.ReferenceIdeal Cert.ReferenceIdeal.ReadP

/-- The degree is the ideal scatter-add of the ones into the zeros at the destination list, in the rank-1 form. -/
theorem deg_eq (a1 : (⟨S2x2500000, .i32⟩ : BufTy).Contents (Elt Ideal)) :
    val_main_v10 (F := Ideal) a1
      = Ideal.hostScatterAdd (vecScatterDims 100000 2600000 Cert.ReferenceIdeal.Gen.scatter_S100000_S2600000x1_S2600000_n_0_0_1_wf)
          (val_main_v8 (F := Ideal)) (val_main_v9 (F := Ideal) a1) (val_main_v7 (F := Ideal)) := rfl

theorem ones_apply (e : Fin 2600000) : val_main_v7 (F := Ideal) (ix1 e) = (1 : EReal) := by
  rw [val_main_v7_apply, val_main_cst_apply]
  exact Cert.RefReadings.ofBits_one
theorem zeros8_apply (i : Fin 100000) : val_main_v8 (F := Ideal) (ix1 i) = (0 : EReal) := by
  rw [val_main_v8_apply, val_main_cst_0_apply]
  exact Ideal.ofBits_zero_f32
theorem zeros11_apply (i : Fin 100000) : val_main_v11 (F := Ideal) (ix1 i) = (0 : EReal) := by
  rw [val_main_v11_apply, val_main_cst_1_apply]
  exact Ideal.ofBits_zero_f32
theorem zeros14_apply (i : Fin 100000) : val_main_v14 (F := Ideal) (ix1 i) = (0 : EReal) := by
  rw [val_main_v14_apply, val_main_cst_2_apply]
  exact Ideal.ofBits_zero_f32

/-- The degree of node `i`: zero plus one per edge whose destination is `i`. -/
theorem deg_apply (a1 : (⟨S2x2500000, .i32⟩ : BufTy).Contents (Elt Ideal)) (i : Fin 100000) :
    val_main_v10 (F := Ideal) a1 (ix1 i)
      = (0 : EReal) + ∑ _e ∈ Finset.univ.filter (fun e : Fin 2600000 =>
          (val_main_v9 (F := Ideal) a1 (ix2 e (0 : Fin 1))).toInt = (i.val : Int)), (1 : EReal) := by
  rw [deg_eq, hostScatterAdd_vecScatter_apply, zeros8_apply]
  exact congrArg (fun s => (0 : EReal) + s) (Finset.sum_congr rfl fun e _ => ones_apply e)

/-- At the ideal instance the float comparison is the extended reals' comparison. -/
theorem cmpf_eq (p : CmpFPredicate) (x y : EReal) : FloatOps.cmpf (F := Ideal) (φ := .f32) p x y = Ideal.cmp p x y := rfl

/-- The guarded inverse square root of the degree is a real. -/
theorem dinv_real (a1 : (⟨S2x2500000, .i32⟩ : BufTy).Contents (Elt Ideal)) (i : Fin 100000) :
    ∃ r : ℝ, val_main_v15 (F := Ideal) a1 (ix1 i) = ((r : ℝ) : EReal) := by
  rw [val_main_v15_apply, val_main_v12_apply, val_main_v13_apply, zeros14_apply, zeros11_apply, deg_apply,
    cmpf_eq, Ideal.hostUnary_rsqrt_def]
  exact GcnAlgebra.select_ogt_rsqrt_count_real (Finset.univ.filter (fun e : Fin 2600000 =>
    (val_main_v9 (F := Ideal) a1 (ix2 e (0 : Fin 1))).toInt = (i.val : Int)))

/-- The two gathers of it, in the rank-1 form. -/
theorem srcDinv_eq (a1 : (⟨S2x2500000, .i32⟩ : BufTy).Contents (Elt Ideal)) :
    val_main_v22 (F := Ideal) a1
      = Host.gather (vecTakeDims 100000 2600000 Cert.ReferenceIdeal.Gen.gather_S100000_S2600000x1_S2600000_n_0_n_n_0_1_1_wf)
          (val_main_v15 (F := Ideal) a1) (val_main_v21 (F := Ideal) a1) := rfl
theorem dstDinv_eq (a1 : (⟨S2x2500000, .i32⟩ : BufTy).Contents (Elt Ideal)) :
    val_main_v29 (F := Ideal) a1
      = Host.gather (vecTakeDims 100000 2600000 Cert.ReferenceIdeal.Gen.gather_S100000_S2600000x1_S2600000_n_0_n_n_0_1_1_wf)
          (val_main_v15 (F := Ideal) a1) (val_main_v28 (F := Ideal) a1) := rfl

/-- THE EDGE WEIGHT IS REAL: a product of two guarded inverse square roots of degrees. -/
theorem weight_real (a1 : (⟨S2x2500000, .i32⟩ : BufTy).Contents (Elt Ideal)) (e : Fin 2600000) :
    ∃ r : ℝ, val_main_v39 (F := Ideal) a1 (ix2 e (0 : Fin 1)) = ((r : ℝ) : EReal) := by
  rw [val_main_v39_apply, show idx_main_v39 (ix2 e (0 : Fin 1)) = ix1 e from
    funext fun a => by match a with | ⟨0, _⟩ => rfl]
  rw [val_main_v30_apply, srcDinv_eq, dstDinv_eq, gather_vecTake_apply (by decide), gather_vecTake_apply (by decide)]
  exact GcnAlgebra.mul_real (dinv_real a1 _) (dinv_real a1 _)

end Cert.RefWeight

end
-- ==== Proof.RefLayer1.lean ====
import proofs.«159857_j61314953118384_2_alg».proof.Proof.RefReadPatched
import proofs.«159857_j61314953118384_2_alg».proof.Proof.LibRowIndex

/-!
# The reference's first-layer aggregate, read at an entry

The reference graph convolution's first layer sends the node features `x : [100000, 5]`, the weight matrix
`W1 : [5, 32]` and the edge list (with one self-loop per node appended: `2600000` edges) to the aggregate

  `agg₁[p, k] = 0 + ∑ over the edges e with destination p of (∑_c x[src e, c] * W1[c, k]) * w e`,

where `w e` is the edge weight (the product of the two endpoints' inverse square-root degrees). In the reference
program this is a scatter-add, from a zero array, of the rows `(x · W1)[src e, :] * w e` into the destination rows;
the rows `(x · W1)[src e, :]` are a row gather of the matrix product at the source indices.

This file reads that stage at one entry `(p, k)`: the scatter-add at an entry is the sum over the edges whose
destination index, read as a signed integer, is `p`; the gathered row of edge `e` is the row of `x · W1` at the source
index of `e`, read signed and clamped into `[0, 99999]` (`srcRow`); and an entry of `x · W1` is the sum over the five
input channels. The edge weight is left closed here, as the reference's own stage read at `(e, 0)`.
-/

noncomputable section

namespace Cert.RefLayer1

open Idealize.ShloMosaic Idealize.ShloMosaic.ValueIdx Idealize.ShloMosaic.RowIndex Cert.ReferenceIdeal Cert.ReferenceIdeal.ReadP
open scoped BigOperators

/-- The source row of edge `e`: its source index (the reference's wrapped source indices as a `[2600000, 1]` column),
    read as a signed integer and clamped into `[0, 99999]`, as the row gather clamps it. -/
def srcRow (x1 : (⟨S2x2500000, .i32⟩ : BufTy).Contents (Elt Ideal)) (e : Fin 2600000) : Fin 100000 :=
  ⟨min (val_main_v37 (F := Ideal) x1 (ix2 e (0 : Fin 1))).toInt.toNat (100000 - 1), by omega⟩

/-- The first layer's aggregate is the ideal scatter-add, with the generic row-scatter dimension numbers, of the
    weighted rows into the zero array at the destination indices (the program's own record is that one, field by field). -/
theorem val_main_v44_eq (x0 : (⟨S100000x5, .f32⟩ : BufTy).Contents (Elt Ideal)) (x1 : (⟨S2x2500000, .i32⟩ : BufTy).Contents (Elt Ideal))
    (x2 : (⟨S5x32, .f32⟩ : BufTy).Contents (Elt Ideal)) :
    val_main_v44 (F := Ideal) x0 x1 x2
      = Ideal.hostScatterAdd (rowScatterDims 100000 2600000 32
            Cert.ReferenceIdeal.Gen.scatter_S100000x32_S2600000x1_S2600000x32_1_0_0_1_wf)
          (val_main_v42 (F := Ideal)) (val_main_v43 (F := Ideal) x1) (val_main_v41 (F := Ideal) x0 x1 x2) := rfl

/-- The rows the first layer scatters are the row gather, with the generic row-gather dimension numbers, of the
    matrix product `x · W1` at the source indices. -/
theorem val_main_v38_eq (x0 : (⟨S100000x5, .f32⟩ : BufTy).Contents (Elt Ideal)) (x1 : (⟨S2x2500000, .i32⟩ : BufTy).Contents (Elt Ideal))
    (x2 : (⟨S5x32, .f32⟩ : BufTy).Contents (Elt Ideal)) :
    val_main_v38 (F := Ideal) x0 x1 x2
      = Host.gather (rowTakeDims 100000 2600000 32
            Cert.ReferenceIdeal.Gen.gather_S100000x32_S2600000x1_S2600000x32_1_0_n_n_0_1_132_wf)
          (val_main_v31 (F := Ideal) x0 x2) (val_main_v37 (F := Ideal) x1) := rfl

/-- The gathered row of edge `e` at channel `k`: the matrix product `x · W1` at the source row of `e`. -/
theorem val_main_v38_at (x0 : (⟨S100000x5, .f32⟩ : BufTy).Contents (Elt Ideal)) (x1 : (⟨S2x2500000, .i32⟩ : BufTy).Contents (Elt Ideal))
    (x2 : (⟨S5x32, .f32⟩ : BufTy).Contents (Elt Ideal)) (e : Fin 2600000) (k : Fin 32) :
    val_main_v38 (F := Ideal) x0 x1 x2 (ix2 e k) = val_main_v31 (F := Ideal) x0 x2 (ix2 (srcRow x1 e) k) := by
  rw [val_main_v38_eq, gather_rowTake_apply (by omega)]
  rfl

/-- The matrix product `x · W1` at `(r, k)`: the sum over the five input channels. -/
theorem val_main_v31_at (x0 : (⟨S100000x5, .f32⟩ : BufTy).Contents (Elt Ideal))
    (x2 : (⟨S5x32, .f32⟩ : BufTy).Contents (Elt Ideal)) (r : Fin 100000) (k : Fin 32) :
    val_main_v31 (F := Ideal) x0 x2 (ix2 r k) = ∑ c : Fin 5, x0 (ix2 r c) * x2 (ix2 c k) := by
  rw [val_main_v31_apply]
  refine Finset.sum_congr rfl fun c _ => ?_
  have hl : lidx_main_v31 (ix2 r k) c = ix2 r c :=
    funext fun a => by match a with | ⟨0, _⟩ => rfl | ⟨1, _⟩ => rfl
  have hr : ridx_main_v31 (ix2 r k) c = ix2 c k :=
    funext fun a => by match a with | ⟨0, _⟩ => rfl | ⟨1, _⟩ => rfl
  rw [hl, hr]

/-- The row the first layer scatters for edge `e`, at channel `k`: the transformed source row times the edge weight
    (the weight column `[2600000, 1]` broadcast along the channels reads `(e, 0)` at every `(e, k)`). -/
theorem val_main_v41_at (x0 : (⟨S100000x5, .f32⟩ : BufTy).Contents (Elt Ideal)) (x1 : (⟨S2x2500000, .i32⟩ : BufTy).Contents (Elt Ideal))
    (x2 : (⟨S5x32, .f32⟩ : BufTy).Contents (Elt Ideal)) (e : Fin 2600000) (k : Fin 32) :
    val_main_v41 (F := Ideal) x0 x1 x2 (ix2 e k)
      = (∑ c : Fin 5, (x0 (ix2 (srcRow x1 e) c) : EReal) * (x2 (ix2 c k) : EReal))
          * (val_main_v39 (F := Ideal) x1 (ix2 e (0 : Fin 1)) : EReal) := by
  have h40 : idx_main_v40 (ix2 e k) = ix2 e (0 : Fin 1) :=
    funext fun a => by match a with | ⟨0, _⟩ => rfl | ⟨1, _⟩ => rfl
  rw [val_main_v41_apply, val_main_v40_apply, h40, val_main_v38_at, val_main_v31_at]
  rfl

/-- THE FIRST LAYER'S AGGREGATE AT `(p, k)`: from zero, the sum over the edges `e` whose destination index, read
    signed, is `p`, of the source row's transformed feature `∑_c x[src e, c] * W1[c, k]` times the edge weight. -/
theorem val_main_v44_at (x0 : (⟨S100000x5, .f32⟩ : BufTy).Contents (Elt Ideal)) (x1 : (⟨S2x2500000, .i32⟩ : BufTy).Contents (Elt Ideal))
    (x2 : (⟨S5x32, .f32⟩ : BufTy).Contents (Elt Ideal)) (p : Fin 100000) (k : Fin 32) :
    val_main_v44 (F := Ideal) x0 x1 x2 (ix2 p k)
      = (0 : EReal) + ∑ e ∈ Finset.univ.filter (fun e : Fin 2600000 =>
            (val_main_v43 (F := Ideal) x1 (ix2 e (0 : Fin 1))).toInt = (p.val : Int)),
          (∑ c : Fin 5, x0 (ix2 (srcRow x1 e) c) * x2 (ix2 c k)) * val_main_v39 (F := Ideal) x1 (ix2 e (0 : Fin 1)) := by
  have h42 : val_main_v42 (F := Ideal) (ix2 p k) = (0 : EReal) := by
    rw [val_main_v42_apply, val_main_cst_8_apply]; exact Ideal.ofBits_zero_f32
  rw [val_main_v44_eq, hostScatterAdd_rowScatter_apply, h42]
  refine congrArg (fun s => (0 : EReal) + s) (Finset.sum_congr rfl fun e _ => ?_)
  exact val_main_v41_at x0 x1 x2 e k

end Cert.RefLayer1

end
-- ==== Proof.Bridge.lean ====
import proofs.«159857_j61314953118384_2_alg».proof.Proof.KernelSpec
import proofs.«159857_j61314953118384_2_alg».proof.Proof.LibRowIndex
import proofs.«159857_j61314953118384_2_alg».proof.Proof.LibGcnAlgebra
import proofs.«159857_j61314953118384_2_alg».proof.Proof.RefReadings
import proofs.«159857_j61314953118384_2_alg».proof.Proof.RefWeight
import proofs.«159857_j61314953118384_2_alg».proof.Proof.RefLayer1

/-!
# The kernel's value and the reference's value are one function

The kernel aggregates the raw node features over the incoming edges and then applies the dense
two-layer map; the reference applies the first linear map to every node, aggregates, and only then
adds the bias, rectifies and contracts with the second weight.  With real features and real
first-layer weights the two orders agree (sum exchange and distributivity, valid on coercions of
reals), and every later stage is the same operation applied to equal operands.

This file reads the kernel's aggregate at an entry, reads the reshapes of the kernel's last stage,
and assembles the equality of the two results.
-/

noncomputable section

namespace Cert.Bridge

open Idealize.ShloMosaic Idealize.ShloMosaic.ValueIdx Cert.ReferenceIdeal Cert.ReferenceIdeal.ReadP
open scoped BigOperators

/-- The source node of edge `e`: the gather index, read as a signed integer and clamped into the
    node range, as the gather operation clamps it. -/
def srcRow (a1 : (⟨S2x2500000, .i32⟩ : BufTy).Contents (Elt Ideal)) (e : Fin 2600000) : Fin 100000 :=
  ⟨min (val_main_v37 (F := Ideal) a1 (ix2 e (0 : Fin 1))).toInt.toNat (100000 - 1), by omega⟩

/-- The kernel's first aggregate, with its two index records named as the generic row scatter and row gather. -/
theorem aggK_eq (x : (⟨S100000x5, .f32⟩ : BufTy).Contents (Elt Ideal))
    (a1 : (⟨S2x2500000, .i32⟩ : BufTy).Contents (Elt Ideal)) :
    Cert.GcnSpec.aggK x a1
      = Ideal.hostScatterAdd (RowIndex.rowScatterDims 100000 2600000 5
            Cert.KernelIdeal.Gen.scatter_S100000x5_S2600000x1_S2600000x5_1_0_0_1_wf)
          (broadcastInDim Cert.KernelIdeal.S100000x5 ![] Cert.KernelIdeal.Gen.bcast_S_S100000x5
            (constant (F := Ideal) Cert.KernelIdeal.S_ .f32 0x00000000#32))
          (val_main_v43 (F := Ideal) a1)
          (mulf (F := Ideal) (φ := .f32) (Host.gather (RowIndex.rowTakeDims 100000 2600000 5
              Cert.KernelIdeal.Gen.gather_S100000x5_S2600000x1_S2600000x5_1_0_n_n_0_1_15_wf) x (val_main_v37 (F := Ideal) a1))
            (broadcastInDim Cert.KernelIdeal.S2600000x5 ![0, 1] Cert.KernelIdeal.Gen.bcast_S2600000x1_S2600000x5_0_1
              (val_main_v39 (F := Ideal) a1))) := rfl

/-- The kernel's first aggregate at node `p`, channel `c`: from zero, the sum over the edges into
    `p` of the source node's raw feature times the edge weight. -/
theorem aggK_apply (x : (⟨S100000x5, .f32⟩ : BufTy).Contents (Elt Ideal))
    (a1 : (⟨S2x2500000, .i32⟩ : BufTy).Contents (Elt Ideal)) (p : Fin 100000) (c : Fin 5) :
    Cert.GcnSpec.aggK x a1 (ix2 p c)
      = 0 + ∑ e ∈ Finset.univ.filter (fun e : Fin 2600000 =>
            (val_main_v43 (F := Ideal) a1 (ix2 e (0 : Fin 1))).toInt = (p.val : Int)),
          x (ix2 (srcRow a1 e) c) * val_main_v39 (F := Ideal) a1 (ix2 e (0 : Fin 1)) := by
  unfold srcRow
  rw [aggK_eq, RowIndex.hostScatterAdd_rowScatter_apply]
  refine congrArg₂ (· + ·) ?_ (Finset.sum_congr rfl fun e _ => ?_)
  · exact (broadcastInDim_apply _ _ _ (ix2 p c) (fun a => a.elim0) (fun a => a.elim0)).trans Ideal.ofBits_zero_f32
  · rw [mulf_apply, RowIndex.gather_rowTake_apply (by omega)]
    rw [broadcastInDim_apply _ _ (val_main_v39 (F := Ideal) a1) (ix2 e c) (ix2 e (0 : Fin 1)) (fun a => match a with
        | ⟨0, _⟩ => by show e.val = if (2600000 : Nat) = 1 then 0 else e.val; rw [if_neg (by omega)]
        | ⟨1, _⟩ => by show 0 = if (1 : Nat) = 1 then 0 else c.val; rw [if_pos rfl])]

/-- The bias laid out as one row, read at `(0, k)`: the bias at `k`. -/
theorem b1Row_apply (b1 : (⟨S32, .f32⟩ : BufTy).Contents (Elt Ideal)) (k : Fin 32) :
    Cert.GcnSpec.b1Row b1 (ix2 (0 : Fin 1) k) = b1 (ix1 k) := by
  unfold Cert.GcnSpec.b1Row
  exact shapeCast_apply b1 _ (ix2 (0 : Fin 1) k) (ix1 k)
    (by rewrite [Shape.rowMajor_val_two, Shape.rowMajor_val_one]; show k.val = 0 * 32 + k.val; omega)

/-- A `[100, 1000]` array laid out as a `[100000, 1]` column, read at `(n, 0)`: the array at
    `(n / 1000, n % 1000)`. -/
theorem cast_col_apply (A : Cert.KernelIdeal.S100x1000.Idx → EReal) (n : Fin 100000) :
    shapeCast Cert.KernelIdeal.S100000x1 A Cert.KernelIdeal.Gen.shapeCasts_S100x1000_S100000x1 (ix2 n (0 : Fin 1))
      = A (ix2 (⟨n.val / 1000, by have := n.isLt; omega⟩ : Fin 100) (⟨n.val % 1000, by omega⟩ : Fin 1000)) := by
  refine shapeCast_apply A _ _ _ ?_
  rewrite [Shape.rowMajor_val_two, Shape.rowMajor_val_two]
  show n.val / 1000 * 1000 + n.val % 1000 = n.val * 1 + 0
  omega

/-- A `[100000, 1]` column laid out as a `[100, 1000]` array, read at `(n / 1000, n % 1000)`: the
    column at `(n, 0)`. -/
theorem cast_grid_apply (B : Cert.KernelIdeal.S100000x1.Idx → EReal) (n : Fin 100000) :
    shapeCast Cert.KernelIdeal.S100x1000 B Cert.KernelIdeal.Gen.shapeCasts_S100000x1_S100x1000
        (ix2 (⟨n.val / 1000, by have := n.isLt; omega⟩ : Fin 100) (⟨n.val % 1000, by omega⟩ : Fin 1000))
      = B (ix2 n (0 : Fin 1)) := by
  refine shapeCast_apply B _ _ _ ?_
  rewrite [Shape.rowMajor_val_two, Shape.rowMajor_val_two]
  show n.val * 1 + 0 = n.val / 1000 * 1000 + n.val % 1000
  omega

/-- The one-entry bias laid out as a `[1, 1]` array, read at `(0, 0)`: the bias's entry. -/
theorem cast_b2_apply (b2 : (⟨S1, .f32⟩ : BufTy).Contents (Elt Ideal)) :
    shapeCast Cert.KernelIdeal.S1x1 b2 Cert.KernelIdeal.Gen.shapeCasts_S1_S1x1 (ix2 (0 : Fin 1) (0 : Fin 1))
      = b2 (ix1 (0 : Fin 1)) := by
  refine shapeCast_apply b2 _ _ _ ?_
  rewrite [Shape.rowMajor_val_two, Shape.rowMajor_val_one]
  rfl

/-- The kernel's result at node `n`: the logistic function of its second aggregate plus the last bias. -/
theorem resultK_apply (x : (⟨S100000x5, .f32⟩ : BufTy).Contents (Elt Ideal))
    (a1 : (⟨S2x2500000, .i32⟩ : BufTy).Contents (Elt Ideal)) (W1 : (⟨S5x32, .f32⟩ : BufTy).Contents (Elt Ideal))
    (b1 : (⟨S32, .f32⟩ : BufTy).Contents (Elt Ideal)) (W2 : (⟨S32x1, .f32⟩ : BufTy).Contents (Elt Ideal))
    (b2 : (⟨S1, .f32⟩ : BufTy).Contents (Elt Ideal)) (n : Fin 100000) :
    Cert.GcnSpec.resultK x a1 W1 b1 W2 b2 (ix2 n (0 : Fin 1))
      = Ideal.logistic (Cert.GcnSpec.agg2Of (Cert.GcnSpec.mlpOf (Cert.GcnSpec.aggK x a1) W1 (Cert.GcnSpec.b1Row b1) W2) a1
          (ix2 n (0 : Fin 1)) + b2 (ix1 (0 : Fin 1))) := by
  unfold Cert.GcnSpec.resultK
  rw [cast_col_apply]
  unfold Cert.GcnSpec.sigOf
  rw [cast_grid_apply, cast_b2_apply]

/-- The reference builds the destination index column twice, by the same operations: the two are one array. -/
theorem v87_eq (a1 : (⟨S2x2500000, .i32⟩ : BufTy).Contents (Elt Ideal)) :
    val_main_v87 (F := Ideal) a1 = val_main_v43 (F := Ideal) a1 := rfl

/-- The reference builds the wrapped source index column twice, by the same operations: the two are one array. -/
theorem v82_eq (a1 : (⟨S2x2500000, .i32⟩ : BufTy).Contents (Elt Ideal)) :
    val_main_v82 (F := Ideal) a1 = val_main_v37 (F := Ideal) a1 := rfl

/-- The reference builds the edge-weight column twice, by the same operations: the two are one array. -/
theorem v84_eq (a1 : (⟨S2x2500000, .i32⟩ : BufTy).Contents (Elt Ideal)) :
    val_main_v84 (F := Ideal) a1 = val_main_v39 (F := Ideal) a1 := rfl

/-- The reference's second aggregate is the kernel's second aggregation applied to the reference's own
    layer-2 input: the same scatter-add of the same gather over the same index and weight columns. -/
theorem v88_eq (x : (⟨S100000x5, .f32⟩ : BufTy).Contents (Elt Ideal)) (a1 : (⟨S2x2500000, .i32⟩ : BufTy).Contents (Elt Ideal))
    (W1 : (⟨S5x32, .f32⟩ : BufTy).Contents (Elt Ideal)) (b1 : (⟨S32, .f32⟩ : BufTy).Contents (Elt Ideal))
    (W2 : (⟨S32x1, .f32⟩ : BufTy).Contents (Elt Ideal)) :
    val_main_v88 (F := Ideal) x a1 W1 b1 W2
      = Cert.GcnSpec.agg2Of (val_main_v76 (F := Ideal) x a1 W1 b1 W2) a1 := rfl

/-- **Aggregate-then-transform is transform-then-aggregate** on this graph: with real features and real
    first-layer weights, the kernel's aggregate of the raw features contracted with a column of `W1` is the
    reference's aggregate of the transformed features.  Both are sums over the edges into `p` and the five
    input channels of `x * W1 * weight`; every factor is real, so the sums may be exchanged. -/
theorem law_of (x : (⟨S100000x5, .f32⟩ : BufTy).Contents (Elt Ideal)) (a1 : (⟨S2x2500000, .i32⟩ : BufTy).Contents (Elt Ideal))
    (W1 : (⟨S5x32, .f32⟩ : BufTy).Contents (Elt Ideal))
    (hx : ∀ i, ∃ r : ℝ, x i = ((r : ℝ) : EReal)) (hw : ∀ i, ∃ r : ℝ, W1 i = ((r : ℝ) : EReal))
    (hL1 : ∀ (p : Fin 100000) (k : Fin 32), val_main_v44 (F := Ideal) x a1 W1 (ix2 p k)
        = 0 + ∑ e ∈ Finset.univ.filter (fun e : Fin 2600000 =>
              (val_main_v43 (F := Ideal) a1 (ix2 e (0 : Fin 1))).toInt = (p.val : Int)),
            (∑ c : Fin 5, x (ix2 (srcRow a1 e) c) * W1 (ix2 c k)) * val_main_v39 (F := Ideal) a1 (ix2 e (0 : Fin 1)))
    (hL2 : ∀ e : Fin 2600000, ∃ r : ℝ, val_main_v39 (F := Ideal) a1 (ix2 e (0 : Fin 1)) = ((r : ℝ) : EReal))
    (p : Fin 100000) (k : Fin 32) :
    ∑ c : Fin 5, Cert.GcnSpec.aggK x a1 (ix2 p c) * W1 (ix2 c k) = val_main_v44 (F := Ideal) x a1 W1 (ix2 p k) := by
  rw [hL1 p k]
  simp only [aggK_apply]
  exact GcnAlgebra.agg_transform_comm'
    (Finset.univ.filter (fun e : Fin 2600000 =>
      (val_main_v43 (F := Ideal) a1 (ix2 e (0 : Fin 1))).toInt = (p.val : Int)))
    (fun e c => x (ix2 (srcRow a1 e) c)) (fun c => W1 (ix2 c k))
    (fun e => val_main_v39 (F := Ideal) a1 (ix2 e (0 : Fin 1)))
    (fun e c => hx _) (fun c => hw _) hL2

/-- The dense two-layer map at row `p`, spelled out. -/
theorem mlpOf_apply (A : Cert.KernelIdeal.S100000x5.Idx → EReal) (W1 : Cert.KernelIdeal.S5x32.Idx → EReal)
    (B : Cert.KernelIdeal.S1x32.Idx → EReal) (W2 : Cert.KernelIdeal.S32x1.Idx → EReal) (p : Fin 100000) :
    Cert.GcnSpec.mlpOf A W1 B W2 (ix2 p (0 : Fin 1))
      = ∑ k : Fin 32, max ((∑ c : Fin 5, A (ix2 p c) * W1 (ix2 c k)) + B (ix2 (0 : Fin 1) k)) 0 * W2 (ix2 k (0 : Fin 1)) := rfl

/-- The dense map of the kernel's aggregate is the reference's layer-2 input. -/
theorem mlpOf_aggK_eq_of (x : (⟨S100000x5, .f32⟩ : BufTy).Contents (Elt Ideal)) (a1 : (⟨S2x2500000, .i32⟩ : BufTy).Contents (Elt Ideal))
    (W1 : (⟨S5x32, .f32⟩ : BufTy).Contents (Elt Ideal)) (b1 : (⟨S32, .f32⟩ : BufTy).Contents (Elt Ideal))
    (W2 : (⟨S32x1, .f32⟩ : BufTy).Contents (Elt Ideal))
    (hx : ∀ i, ∃ r : ℝ, x i = ((r : ℝ) : EReal)) (hw : ∀ i, ∃ r : ℝ, W1 i = ((r : ℝ) : EReal))
    (hL1 : ∀ (p : Fin 100000) (k : Fin 32), val_main_v44 (F := Ideal) x a1 W1 (ix2 p k)
        = 0 + ∑ e ∈ Finset.univ.filter (fun e : Fin 2600000 =>
              (val_main_v43 (F := Ideal) a1 (ix2 e (0 : Fin 1))).toInt = (p.val : Int)),
            (∑ c : Fin 5, x (ix2 (srcRow a1 e) c) * W1 (ix2 c k)) * val_main_v39 (F := Ideal) a1 (ix2 e (0 : Fin 1)))
    (hL2 : ∀ e : Fin 2600000, ∃ r : ℝ, val_main_v39 (F := Ideal) a1 (ix2 e (0 : Fin 1)) = ((r : ℝ) : EReal)) :
    Cert.GcnSpec.mlpOf (Cert.GcnSpec.aggK x a1) W1 (Cert.GcnSpec.b1Row b1) W2
      = val_main_v76 (F := Ideal) x a1 W1 b1 W2 := by
  funext i
  obtain ⟨p, q, rfl⟩ : ∃ (p : Fin 100000) (q : Fin 1), i = ix2 p q := ⟨i 0, i 1, eq_ix2 i⟩
  obtain rfl : q = 0 := Subsingleton.elim _ _
  rw [mlpOf_apply, RefReadings.layer2_input]
  refine Finset.sum_congr rfl fun k _ => ?_
  rw [law_of x a1 W1 hx hw hL1 hL2 p k, b1Row_apply]

/-- **The kernel's result is the reference's result**, for real features and real first-layer weights. -/
theorem result_eq_of (x : (⟨S100000x5, .f32⟩ : BufTy).Contents (Elt Ideal)) (a1 : (⟨S2x2500000, .i32⟩ : BufTy).Contents (Elt Ideal))
    (W1 : (⟨S5x32, .f32⟩ : BufTy).Contents (Elt Ideal)) (b1 : (⟨S32, .f32⟩ : BufTy).Contents (Elt Ideal))
    (W2 : (⟨S32x1, .f32⟩ : BufTy).Contents (Elt Ideal)) (b2 : (⟨S1, .f32⟩ : BufTy).Contents (Elt Ideal))
    (hx : ∀ i, ∃ r : ℝ, x i = ((r : ℝ) : EReal)) (hw : ∀ i, ∃ r : ℝ, W1 i = ((r : ℝ) : EReal))
    (hL1 : ∀ (p : Fin 100000) (k : Fin 32), val_main_v44 (F := Ideal) x a1 W1 (ix2 p k)
        = 0 + ∑ e ∈ Finset.univ.filter (fun e : Fin 2600000 =>
              (val_main_v43 (F := Ideal) a1 (ix2 e (0 : Fin 1))).toInt = (p.val : Int)),
            (∑ c : Fin 5, x (ix2 (srcRow a1 e) c) * W1 (ix2 c k)) * val_main_v39 (F := Ideal) a1 (ix2 e (0 : Fin 1)))
    (hL2 : ∀ e : Fin 2600000, ∃ r : ℝ, val_main_v39 (F := Ideal) a1 (ix2 e (0 : Fin 1)) = ((r : ℝ) : EReal)) :
    Cert.GcnSpec.resultK x a1 W1 b1 W2 b2 = val_main_v97 (F := Ideal) x a1 W1 b1 W2 b2 := by
  funext i
  obtain ⟨n, q, rfl⟩ : ∃ (n : Fin 100000) (q : Fin 1), i = ix2 n q := ⟨i 0, i 1, eq_ix2 i⟩
  obtain rfl : q = 0 := Subsingleton.elim _ _
  rw [resultK_apply, RefReadings.result_eq_logistic, mlpOf_aggK_eq_of x a1 W1 b1 W2 hx hw hL1 hL2, v88_eq]

/-- The kernel's result is the reference's result, given the reference's first aggregate read at an entry
    (the edge weights are real by `Cert.RefWeight.weight_real`). -/
theorem result_eq_of_layer1 (x : FVec Ideal Cert.KernelIdeal.S100000x5 .f32) (a1 : IVec Cert.KernelIdeal.S2x2500000 32)
    (W1 : FVec Ideal Cert.KernelIdeal.S5x32 .f32) (b1 : FVec Ideal Cert.KernelIdeal.S32 .f32)
    (W2 : FVec Ideal Cert.KernelIdeal.S32x1 .f32) (b2 : FVec Ideal Cert.KernelIdeal.S1 .f32)
    (hx : ∀ i, ∃ r : ℝ, x i = ((r : ℝ) : EReal)) (hw : ∀ i, ∃ r : ℝ, W1 i = ((r : ℝ) : EReal))
    (hL1 : ∀ (p : Fin 100000) (k : Fin 32), val_main_v44 (F := Ideal) x a1 W1 (ix2 p k)
        = 0 + ∑ e ∈ Finset.univ.filter (fun e : Fin 2600000 =>
              (val_main_v43 (F := Ideal) a1 (ix2 e (0 : Fin 1))).toInt = (p.val : Int)),
            (∑ c : Fin 5, x (ix2 (srcRow a1 e) c) * W1 (ix2 c k)) * val_main_v39 (F := Ideal) a1 (ix2 e (0 : Fin 1))) :
    Cert.GcnSpec.resultK x a1 W1 b1 W2 b2 = val_main_v97 (F := Ideal) x a1 W1 b1 W2 b2 :=
  result_eq_of x a1 W1 b1 W2 b2 hx hw hL1 (fun e => Cert.RefWeight.weight_real a1 e)

/-- The two definitions of an edge's source node (here and beside the reference's first aggregate) are one. -/
theorem srcRow_eq : srcRow = Cert.RefLayer1.srcRow := rfl

/-- **The kernel's result is the reference's result**, for real features and real first-layer weights:
    the reference's first aggregate read at an entry (`Cert.RefLayer1.val_main_v44_at`) and the reality of
    the edge weights (`Cert.RefWeight.weight_real`) discharge the two remaining hypotheses. -/
theorem result_eq (x : FVec Ideal Cert.KernelIdeal.S100000x5 .f32) (a1 : IVec Cert.KernelIdeal.S2x2500000 32)
    (W1 : FVec Ideal Cert.KernelIdeal.S5x32 .f32) (b1 : FVec Ideal Cert.KernelIdeal.S32 .f32)
    (W2 : FVec Ideal Cert.KernelIdeal.S32x1 .f32) (b2 : FVec Ideal Cert.KernelIdeal.S1 .f32)
    (hx : ∀ i, ∃ r : ℝ, x i = ((r : ℝ) : EReal)) (hw : ∀ i, ∃ r : ℝ, W1 i = ((r : ℝ) : EReal)) :
    Cert.GcnSpec.resultK x a1 W1 b1 W2 b2 = Cert.ReferenceIdeal.ReadP.val_main_v97 (F := Ideal) x a1 W1 b1 W2 b2 :=
  result_eq_of_layer1 x a1 W1 b1 W2 b2 hx hw
    (fun p k => by rw [srcRow_eq]; exact Cert.RefLayer1.val_main_v44_at x a1 W1 p k)

end Cert.Bridge

end
-- ==== Proof.lean ====
/-
  The proof of `Cert.Claim`: the two-layer graph convolution kernel against its reference.

  Both programs build, from the integer argument, the edge lists with self loops (source ++ loop, destination ++ loop), the
  in-degree of every node, its inverse square root guarded by "degree > 0", and the edge weight
  `w e = dinv (src e) * dinv (dst e)`, by the same operations. The REFERENCE transforms before it aggregates:
  `h1 = relu (∑_{e : dst e = ·} (x (src e) · W1) * w e + b1)`, then `out = logistic (∑_{e : dst e = ·} (h1 (src e) · W2) * w e + b2)`,
  the logistic function spelt `1 / (1 + exp (-z))`. The KERNEL aggregates the raw five features first,
  `A = ∑_{e : dst e = ·} x (src e) * w e`, applies `relu (A · W1 + b1) · W2` in one fused region over ten row blocks, aggregates
  that column, and applies bias and logistic in a second region on the column laid out as `[100, 1000]`.
  On the extended reals the two agree once `∑_c (∑_e x_e,c * w_e) * W1_c,k = ∑_e (∑_c x_e,c * W1_c,k) * w_e`: distributivity and an
  exchange of finite sums, valid because the features and the first weight are finite (the precondition) and the edge weight is
  finite (a degree is a count, and the guarded inverse square root of a count is a real). Everything after that law is the
  same operations on both sides.

  The frames of the word-level kernel and of its idealization are the generated frame certificates; the reference's frame is
  its run with the result dropped; the idealization rewrote no operation, so `preserves` is trivial.
-/
import proofs.«159857_j61314953118384_2_alg».proof.Defs
import proofs.«159857_j61314953118384_2_alg».proof.Proof.Gen.Kernel
import proofs.«159857_j61314953118384_2_alg».proof.Proof.Gen.Kernel.Frame
import proofs.«159857_j61314953118384_2_alg».proof.Proof.Gen.KernelIdeal
import proofs.«159857_j61314953118384_2_alg».proof.Proof.Gen.KernelIdeal.Frame
import proofs.«159857_j61314953118384_2_alg».proof.Proof.Gen.ReferenceIdeal
import proofs.«159857_j61314953118384_2_alg».proof.Proof.Gen.Pre_finite_inputs
import proofs.«159857_j61314953118384_2_alg».proof.Proof.RefRunPatched
import proofs.«159857_j61314953118384_2_alg».proof.Proof.RefReadPatched
import proofs.«159857_j61314953118384_2_alg».proof.Proof.KernelValue
import proofs.«159857_j61314953118384_2_alg».proof.Proof.FiniteInputs
import proofs.«159857_j61314953118384_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame certificate. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both idealized programs end with the kernel's function `resultK` of the arguments
    in their result buffers: the kernel by its run read back, the reference by its run, its stages and the bridge, which
    uses that the features and the first weight are finite. -/
theorem algebraic : Cert.algebraic_KernelIdeal_ReferenceIdeal := by
  intro m ρ m' ρ' hpre hagree
  refine ⟨fun c => Cert.GcnSpec.resultK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Result.kernel_value m ρ c), (h c).2⟩)
      (Cert.KernelIdeal.Result.run (F := Ideal) m ρ)
  · refine (θ_run Cert.ReferenceIdeal.defs _ _).mono (fun r h c => ⟨?_, (h c).2⟩)
      (Cert.ReferenceIdeal.ValueP.run (F := Ideal) m' ρ')
    rw [(h c).1, Cert.ReferenceIdeal.ReadP.val_main_v97_eq, (hagree c).1, (hagree c).2.1, (hagree c).2.2.1,
      (hagree c).2.2.2.1, (hagree c).2.2.2.2.1, (hagree c).2.2.2.2.2]
    exact (Cert.Bridge.result_eq _ _ _ _ _ _ (fun i => Cert.FiniteInputs.x_real hpre c i)
      (fun i => Cert.FiniteInputs.W1_real hpre c i)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
